-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x10 : Shape := ⟨2, ![4194304, 10]⟩
abbrev S4194304x4 : Shape := ⟨2, ![4194304, 4]⟩
abbrev S4x10 : Shape := ⟨2, ![4, 10]⟩
abbrev S4 : Shape := ⟨1, ![4]⟩
abbrev S4x4 : Shape := ⟨2, ![4, 4]⟩
abbrev S_ : Shape := ⟨0, ![]⟩

class Facts : Prop where
  bcast_S_S4194304x10 : S_.BroadcastsInDim S4194304x10 (![] : Fin 0 → Fin S4194304x10.rank)
  reducesTo_S4194304x10_S_d0_1 : S4194304x10.ReducesTo [0, 1] S_
  h_S_ : 0 < S_.numel
  bcast_S_S4194304x4 : S_.BroadcastsInDim S4194304x4 (![] : Fin 0 → Fin S4194304x4.rank)
  reducesTo_S4194304x4_S_d0_1 : S4194304x4.ReducesTo [0, 1] S_
  bcast_S_S4x10 : S_.BroadcastsInDim S4x10 (![] : Fin 0 → Fin S4x10.rank)
  reducesTo_S4x10_S_d0_1 : S4x10.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_

variable [Facts]

def fn_part5 {F : FTy → Type} [FloatOps F] (main_arg18 : FVec F S4 .f32) (main_v83 : IVec S_ 1) (main_v84 : FVec F S4x4 .f32) (main_cst_32 : FVec F S_ .f32) : IVec S_ 1 :=
  let main_v85 : FVec F S4x4 .f32 := broadcastInDim S4x4 ![] bcast_S_S4x4 main_cst_32
  let main_v86 : IVec S4x4 1 := cmpf .olt main_v84 main_v85
  let main_c_33 : IVec S_ 1 := constantI S_ 1 1#1
  let main_v87 : IVec S_ 1 := (fun x v => Host.reduce IntOp.andi x v reducesTo_S4x4_S_d0_1 h_S_) main_v86 main_c_33
  let main_v88 : IVec S_ 1 := andi main_v83 main_v87
  let main_v89 : FVec F S4 .f32 := Host.absf main_arg18
  let main_cst_34 : FVec F S_ .f32 := constant S_ .f32 0x7F800000#32
  let main_v90 : FVec F S4 .f32 := broadcastInDim S4 ![] bcast_S_S4 main_cst_34
  let main_v91 : IVec S4 1 := cmpf .olt main_v89 main_v90
  let main_c_35 : IVec S_ 1 := constantI S_ 1 1#1
  let main_v92 : IVec S_ 1 := (fun x v => Host.reduce IntOp.andi x v reducesTo_S4_S_d0 h_S_) main_v91 main_c_35
  let main_v93 : IVec S_ 1 := andi main_v88 main_v92
  main_v93

def fn_part4 {F : FTy → Type} [FloatOps F] (main_arg14 : FVec F S4 .f32) (main_arg15 : FVec F S4x4 .f32) (main_arg16 : FVec F S4 .f32) (main_arg17 : FVec F S4x4 .f32) (main_arg18 : FVec F S4 .f32) (main_v63 : IVec S_ 1) (main_v67 : IVec S_ 1) : IVec S_ 1 :=
  let main_v68 : IVec S_ 1 := andi main_v63 main_v67
  let main_v69 : FVec F S4 .f32 := Host.absf main_arg14
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  let main_v74 : FVec F S4x4 .f32 := Host.absf main_arg15
  let main_cst_28 : FVec F S_ .f32 := constant S_ .f32 0x7F800000#32
  let main_v75 : FVec F S4x4 .f32 := broadcastInDim S4x4 ![] bcast_S_S4x4 main_cst_28
  let main_v76 : IVec S4x4 1 := cmpf .olt main_v74 main_v75
  let main_c_29 : IVec S_ 1 := constantI S_ 1 1#1
  let main_v77 : IVec S_ 1 := (fun x v => Host.reduce IntOp.andi x v reducesTo_S4x4_S_d0_1 h_S_) main_v76 main_c_29
  let main_v78 : IVec S_ 1 := andi main_v73 main_v77
  let main_v79 : FVec F S4 .f32 := Host.absf main_arg16
  let main_cst_30 : FVec F S_ .f32 := constant S_ .f32 0x7F800000#32
  let main_v80 : FVec F S4 .f32 := broadcastInDim S4 ![] bcast_S_S4 main_cst_30
  let main_v81 : IVec S4 1 := cmpf .olt main_v79 main_v80
  let main_c_31 : IVec S_ 1 := constantI S_ 1 1#1
  let main_v82 : IVec S_ 1 := (fun x v => Host.reduce IntOp.andi x v reducesTo_S4_S_d0 h_S_) main_v81 main_c_31
  let main_v83 : IVec S_ 1 := andi main_v78 main_v82
  let main_v84 : FVec F S4x4 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S4x4 .f32) (main_arg12 : FVec F S4 .f32) (main_arg13 : FVec F S4x4 .f32) (main_arg14 : FVec F S4 .f32) (main_arg15 : FVec F S4x4 .f32) (main_arg16 : FVec F S4 .f32) (main_arg17 : FVec F S4x4 .f32) (main_arg18 : FVec F S4 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4x4 .f32 := Host.absf main_arg11
  let main_cst_20 : FVec F S_ .f32 := constant S_ .f32 0x7F800000#32
  let main_v55 : FVec F S4x4 .f32 := broadcastInDim S4x4 ![] bcast_S_S4x4 main_cst_20
  let main_v56 : IVec S4x4 1 := cmpf .olt main_v54 main_v55
  let main_c_21 : IVec S_ 1 := constantI S_ 1 1#1
  let main_v57 : IVec S_ 1 := (fun x v => Host.reduce IntOp.andi x v reducesTo_S4x4_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4x4 .f32 := Host.absf main_arg13
  let main_cst_24 : FVec F S_ .f32 := constant S_ .f32 0x7F800000#32
  let main_v65 : FVec F S4x4 .f32 := broadcastInDim S4x4 ![] bcast_S_S4x4 main_cst_24
  let main_v66 : IVec S4x4 1 := cmpf .olt main_v64 main_v65
  let main_c_25 : IVec S_ 1 := constantI S_ 1 1#1
  let main_v67 : IVec S_ 1 := (fun x v => Host.reduce IntOp.andi x v reducesTo_S4x4_S_d0_1 h_S_) main_v66 main_c_25
  fn_part4 (F := F) main_arg14 main_arg15 main_arg16 main_arg17 main_arg18 main_v63 main_v67

def fn_part2 {F : FTy → Type} [FloatOps F] (main_arg7 : FVec F S4x10 .f32) (main_arg8 : FVec F S4 .f32) (main_arg9 : FVec F S4x10 .f32) (main_arg10 : FVec F S4 .f32) (main_arg11 : FVec F S4x4 .f32) (main_arg12 : FVec F S4 .f32) (main_arg13 : FVec F S4x4 .f32) (main_arg14 : FVec F S4 .f32) (main_arg15 : FVec F S4x4 .f32) (main_arg16 : FVec F S4 .f32) (main_arg17 : FVec F S4x4 .f32) (main_arg18 : FVec F S4 .f32) (main_v33 : IVec S_ 1) : IVec S_ 1 :=
  let main_v34 : FVec F S4x10 .f32 := Host.absf main_arg7
  let main_cst_12 : FVec F S_ .f32 := constant S_ .f32 0x7F800000#32
  let main_v35 : FVec F S4x10 .f32 := broadcastInDim S4x10 ![] bcast_S_S4x10 main_cst_12
  let main_v36 : IVec S4x10 1 := cmpf .olt main_v34 main_v35
  let main_c_13 : IVec S_ 1 := constantI S_ 1 1#1
  let main_v37 : IVec S_ 1 := (fun x v => Host.reduce IntOp.andi x v reducesTo_S4x10_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S4x10 .f32 := Host.absf main_arg9
  let main_cst_16 : FVec F S_ .f32 := constant S_ .f32 0x7F800000#32
  let main_v45 : FVec F S4x10 .f32 := broadcastInDim S4x10 ![] bcast_S_S4x10 main_cst_16
  let main_v46 : IVec S4x10 1 := cmpf .olt main_v44 main_v45
  let main_c_17 : IVec S_ 1 := constantI S_ 1 1#1
  let main_v47 : IVec S_ 1 := (fun x v => Host.reduce IntOp.andi x v reducesTo_S4x10_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_arg13 main_arg14 main_arg15 main_arg16 main_arg17 main_arg18 main_v48 main_v49 main_v50

def fn_part1 {F : FTy → Type} [FloatOps F] (main_arg4 : FVec F S4 .f32) (main_arg5 : FVec F S4x10 .f32) (main_arg6 : FVec F S4 .f32) (main_arg7 : FVec F S4x10 .f32) (main_arg8 : FVec F S4 .f32) (main_arg9 : FVec F S4x10 .f32) (main_arg10 : FVec F S4 .f32) (main_arg11 : FVec F S4x4 .f32) (main_arg12 : FVec F S4 .f32) (main_arg13 : FVec F S4x4 .f32) (main_arg14 : FVec F S4 .f32) (main_arg15 : FVec F S4x4 .f32) (main_arg16 : FVec F S4 .f32) (main_arg17 : FVec F S4x4 .f32) (main_arg18 : FVec F S4 .f32) (main_v13 : IVec S_ 1) (main_v16 : IVec S4x10 1) : IVec S_ 1 :=
  let main_c_5 : IVec S_ 1 := constantI S_ 1 1#1
  let main_v17 : IVec S_ 1 := (fun x v => Host.reduce IntOp.andi x v reducesTo_S4x10_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x10 .f32 := Host.absf main_arg5
  let main_cst_8 : FVec F S_ .f32 := constant S_ .f32 0x7F800000#32
  let main_v25 : FVec F S4x10 .f32 := broadcastInDim S4x10 ![] bcast_S_S4x10 main_cst_8
  let main_v26 : IVec S4x10 1 := cmpf .olt main_v24 main_v25
  let main_c_9 : IVec S_ 1 := constantI S_ 1 1#1
  let main_v27 : IVec S_ 1 := (fun x v => Host.reduce IntOp.andi x v reducesTo_S4x10_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4194304x10 .f32) (main_arg1 : FVec F S4194304x4 .f32) (main_arg2 : FVec F S4194304x4 .f32) (main_arg3 : FVec F S4x10 .f32) (main_arg4 : FVec F S4 .f32) (main_arg5 : FVec F S4x10 .f32) (main_arg6 : FVec F S4 .f32) (main_arg7 : FVec F S4x10 .f32) (main_arg8 : FVec F S4 .f32) (main_arg9 : FVec F S4x10 .f32) (main_arg10 : FVec F S4 .f32) (main_arg11 : FVec F S4x4 .f32) (main_arg12 : FVec F S4 .f32) (main_arg13 : FVec F S4x4 .f32) (main_arg14 : FVec F S4 .f32) (main_arg15 : FVec F S4x4 .f32) (main_arg16 : FVec F S4 .f32) (main_arg17 : FVec F S4x4 .f32) (main_arg18 : FVec F S4 .f32) : IVec S_ 1 :=
  let main_v0 : FVec F S4194304x10 .f32 := Host.absf main_arg0
  let main_cst : FVec F S_ .f32 := constant S_ .f32 0x7F800000#32
  let main_v1 : FVec F S4194304x10 .f32 := broadcastInDim S4194304x10 ![] bcast_S_S4194304x10 main_cst
  let main_v2 : IVec S4194304x10 1 := cmpf .olt main_v0 main_v1
  let main_c : IVec S_ 1 := constantI S_ 1 1#1
  let main_v3 : IVec S_ 1 := (fun x v => Host.reduce IntOp.andi x v reducesTo_S4194304x10_S_d0_1 h_S_) main_v2 main_c
  let main_v4 : FVec F S4194304x4 .f32 := Host.absf main_arg1
  let main_cst_0 : FVec F S_ .f32 := constant S_ .f32 0x7F800000#32
  let main_v5 : FVec F S4194304x4 .f32 := broadcastInDim S4194304x4 ![] bcast_S_S4194304x4 main_cst_0
  let main_v6 : IVec S4194304x4 1 := cmpf .olt main_v4 main_v5
  let main_c_1 : IVec S_ 1 := constantI S_ 1 1#1
  let main_v7 : IVec S_ 1 := (fun x v => Host.reduce IntOp.andi x v reducesTo_S4194304x4_S_d0_1 h_S_) main_v6 main_c_1
  let main_v8 : IVec S_ 1 := andi main_v3 main_v7
  let main_v9 : FVec F S4194304x4 .f32 := Host.absf main_arg2
  let main_cst_2 : FVec F S_ .f32 := constant S_ .f32 0x7F800000#32
  let main_v10 : FVec F S4194304x4 .f32 := broadcastInDim S4194304x4 ![] bcast_S_S4194304x4 main_cst_2
  let main_v11 : IVec S4194304x4 1 := cmpf .olt main_v9 main_v10
  let main_c_3 : IVec S_ 1 := constantI S_ 1 1#1
  let main_v12 : IVec S_ 1 := (fun x v => Host.reduce IntOp.andi x v reducesTo_S4194304x4_S_d0_1 h_S_) main_v11 main_c_3
  let main_v13 : IVec S_ 1 := andi main_v8 main_v12
  let main_v14 : FVec F S4x10 .f32 := Host.absf main_arg3
  let main_cst_4 : FVec F S_ .f32 := constant S_ .f32 0x7F800000#32
  let main_v15 : FVec F S4x10 .f32 := broadcastInDim S4x10 ![] bcast_S_S4x10 main_cst_4
  let main_v16 : IVec S4x10 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4194304x10 : Shape := ⟨2, ![4194304, 10]⟩
abbrev S4194304x4 : Shape := ⟨2, ![4194304, 4]⟩
abbrev S4x10 : Shape := ⟨2, ![4, 10]⟩
abbrev S4 : Shape := ⟨1, ![4]⟩
abbrev S4x4 : Shape := ⟨2, ![4, 4]⟩
abbrev S16x10 : Shape := ⟨2, ![16, 10]⟩
abbrev S16x4 : Shape := ⟨2, ![16, 4]⟩
abbrev S16 : Shape := ⟨1, ![16]⟩
abbrev S10x16 : Shape := ⟨2, ![10, 16]⟩
abbrev S4x16 : Shape := ⟨2, ![4, 16]⟩
abbrev S1x16 : Shape := ⟨2, ![1, 16]⟩
abbrev S4096x10 : Shape := ⟨2, ![4096, 10]⟩
abbrev S4096x4 : Shape := ⟨2, ![4096, 4]⟩
abbrev S4096x16 : Shape := ⟨2, ![4096, 16]⟩

abbrev nBuf : Space → Nat
  | .hbm => 29
  | .vmem => 13
  | .smem => 0
  | _ => 0

abbrev bufTy : (tb : Table) → Fin (tcTables nBuf tb) → BufTy
  | .hbm, ⟨0, _⟩ => ⟨S4194304x10, .f32⟩
  | .hbm, ⟨1, _⟩ => ⟨S4194304x4, .f32⟩
  | .hbm, ⟨2, _⟩ => ⟨S4194304x4, .f32⟩
  | .hbm, ⟨3, _⟩ => ⟨S4x10, .f32⟩
  | .hbm, ⟨4, _⟩ => ⟨S4, .f32⟩
  | .hbm, ⟨5, _⟩ => ⟨S4x10, .f32⟩
  | .hbm, ⟨6, _⟩ => ⟨S4, .f32⟩
  | .hbm, ⟨7, _⟩ => ⟨S4x10, .f32⟩
  | .hbm, ⟨8, _⟩ => ⟨S4, .f32⟩
  | .hbm, ⟨9, _⟩ => ⟨S4x10, .f32⟩
  | .hbm, ⟨10, _⟩ => ⟨S4, .f32⟩
  | .hbm, ⟨11, _⟩ => ⟨S4x4, .f32⟩
  | .hbm, ⟨12, _⟩ => ⟨S4, .f32⟩
  | .hbm, ⟨13, _⟩ => ⟨S4x4, .f32⟩
  | .hbm, ⟨14, _⟩ => ⟨S4, .f32⟩
  | .hbm, ⟨15, _⟩ => ⟨S4x4, .f32⟩
  | .hbm, ⟨16, _⟩ => ⟨S4, .f32⟩
  | .hbm, ⟨17, _⟩ => ⟨S4x4, .f32⟩
  | .hbm, ⟨18, _⟩ => ⟨S4, .f32⟩
  | .hbm, ⟨19, _⟩ => ⟨S16x10, .f32⟩
  | .hbm, ⟨20, _⟩ => ⟨S16x4, .f32⟩
  | .hbm, ⟨21, _⟩ => ⟨S16, .f32⟩
  | .hbm, ⟨22, _⟩ => ⟨S16, .f32⟩
  | .hbm, ⟨23, _⟩ => ⟨S10x16, .f32⟩
  | .hbm, ⟨24, _⟩ => ⟨S4x16, .f32⟩
  | .hbm, ⟨25, _⟩ => ⟨S16, .f32⟩
  | .hbm, ⟨26, _⟩ => ⟨S1x16, .f32⟩
  | .hbm, ⟨27, _⟩ => ⟨S4194304x4, .f32⟩
  | .hbm, ⟨28, _⟩ => ⟨S4194304x4, .f32⟩
  | .local _ .vmem, ⟨0, _⟩ => ⟨S4096x10, .f32⟩
  | .local _ .vmem, ⟨1, _⟩ => ⟨S4096x10, .f32⟩
  | .local _ .vmem, ⟨2, _⟩ => ⟨S4096x4, .f32⟩
  | .local _ .vmem, ⟨3, _⟩ => ⟨S4096x4, .f32⟩
  | .local _ .vmem, ⟨4, _⟩ => ⟨S4096x4, .f32⟩
  | .local _ .vmem, ⟨5, _⟩ => ⟨S4096x4, .f32⟩
  | .local _ .vmem, ⟨6, _⟩ => ⟨S10x16, .f32⟩
  | .local _ .vmem, ⟨7, _⟩ => ⟨S4x16, .f32⟩
  | .local _ .vmem, ⟨8, _⟩ => ⟨S1x16, .f32⟩
  | .local _ .vmem, ⟨9, _⟩ => ⟨S4096x4, .f32⟩
  | .local _ .vmem, ⟨10, _⟩ => ⟨S4096x4, .f32⟩
  | .local _ .vmem, ⟨11, _⟩ => ⟨S4096x4, .f32⟩
  | .local _ .vmem, ⟨12, _⟩ => ⟨S4096x4, .f32⟩
  | _, _ => ⟨S4194304x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S4x10_S4x10_S4x10_S4x10_S16x10_d0 : Shape.Concatenates [S4x10, S4x10, S4x10, S4x10] S16x10 0
  concatenates_S4x4_S4x4_S4x4_S4x4_S16x4_d0 : Shape.Concatenates [S4x4, S4x4, S4x4, S4x4] S16x4 0
  concatenates_S4_S4_S4_S4_S16_d0 : Shape.Concatenates [S4, S4, S4, S4] S16 0
  transposes_S16x10_S10x16_1_0 : S16x10.Transposes [1, 0] S10x16
  transposes_S16x4_S4x16_1_0 : S16x4.Transposes [1, 0] S4x16
  shapeCasts_S16_S1x16 : S16.ShapeCasts S1x16
  inb_S4096x10_S4096x10_0_0 : ∀ a, (![0, 0] : Fin 2 → Nat) a + S4096x10.size a ≤ S4096x10.size a
  h_S4096x10 : 0 < S4096x10.numel
  inb_S4096x4_S4096x4_0_0 : ∀ a, (![0, 0] : Fin 2 → Nat) a + S4096x4.size a ≤ S4096x4.size a
  h_S4096x4 : 0 < S4096x4.numel
  inb_S10x16_S10x16_0_0 : ∀ a, (![0, 0] : Fin 2 → Nat) a + S10x16.size a ≤ S10x16.size a
  h_S10x16 : 0 < S10x16.numel
  shapeCasts_S10x16_S10x16 : S10x16.ShapeCasts S10x16
  inb_S4x16_S4x16_0_0 : ∀ a, (![0, 0] : Fin 2 → Nat) a + S4x16.size a ≤ S4x16.size a
  h_S4x16 : 0 < S4x16.numel
  shapeCasts_S4x16_S4x16 : S4x16.ShapeCasts S4x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  slices_S4096x16_o0_0_S4096x4 : S4096x16.Slices ![0, 0] S4096x4
  slices_S4096x16_o0_4_S4096x4 : S4096x16.Slices ![0, 4] S4096x4
  slices_S4096x16_o0_8_S4096x4 : S4096x16.Slices ![0, 8] S4096x4
  slices_S4096x16_o0_12_S4096x4 : S4096x16.Slices ![0, 12] S4096x4
  dot_S4096x10_S10x16_S4096x16_1_0_0_1_n_n_wf : DotDims.WF S4096x10 S10x16 S4096x16 [1] [0] [0] [1] [] []
  dot_S4096x4_S4x16_S4096x16_1_0_0_1_n_n_wf : DotDims.WF S4096x4 S4x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x10.size a ≤ S4194304x10.size a
  hwx0_0 : ∀ i : grid0.Coords, EltTy.bits .f32 = 32 ∨ (Rect.block (s := S4194304x10) S4096x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x4.size a ≤ S4194304x4.size a
  hwx0_1 : ∀ i : grid0.Coords, EltTy.bits .f32 = 32 ∨ (Rect.block (s := S4194304x4) S4096x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x4.size a ≤ S4194304x4.size a
  hwx0_2 : ∀ i : grid0.Coords, EltTy.bits .f32 = 32 ∨ (Rect.block (s := S4194304x4) S4096x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x16.size a ≤ S10x16.size a
  hwx0_3 : ∀ i : grid0.Coords, EltTy.bits .f32 = 32 ∨ (Rect.block (s := S10x16) S10x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x16.size a ≤ S4x16.size a
  hwx0_4 : ∀ i : grid0.Coords, EltTy.bits .f32 = 32 ∨ (Rect.block (s := S4x16) S4x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x4.size a ≤ S4194304x4.size a
  hwx0_6 : ∀ i : grid0.Coords, EltTy.bits .f32 = 32 ∨ (Rect.block (s := S4194304x4) S4096x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x4.size a ≤ S4194304x4.size a
  hwx0_7 : ∀ i : grid0.Coords, EltTy.bits .f32 = 32 ∨ (Rect.block (s := S4194304x4) S4096x4.size (cc0_transform_7 i) (hinb0_7 i)).WholeWords (EltTy.packing .f32)

variable [Facts₀]

def dot_S4096x10_S10x16_S4096x16_1_0_0_1_n_n : DotDims S4096x10 S10x16 S4096x16 where
  lhsContracting := [1]
  rhsContracting := [0]
  lhsNonContracting := [0]
  rhsNonContracting := [1]
  lhsBatch := []
  rhsBatch := []
  wf := dot_S4096x10_S10x16_S4096x16_1_0_0_1_n_n_wf
def dot_S4096x4_S4x16_S4096x16_1_0_0_1_n_n : DotDims S4096x4 S4x16 S4096x16 where
  lhsContracting := [1]
  rhsContracting := [0]
  lhsNonContracting := [0]
  rhsNonContracting := [1]
  lhsBatch := []
  rhsBatch := []
  wf := dot_S4096x4_S4x16_S4096x16_1_0_0_1_n_n_wf

abbrev win0_0 : Pipeline.Window sig grid0 :=
  Pipeline.Window.ofSpec (Memref.whole main_arg0) S4096x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S4096x4.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S4096x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4194304x10 : Shape := ⟨2, ![4194304, 10]⟩
abbrev S4194304x4 : Shape := ⟨2, ![4194304, 4]⟩
abbrev S4x10 : Shape := ⟨2, ![4, 10]⟩
abbrev S4 : Shape := ⟨1, ![4]⟩
abbrev S4x4 : Shape := ⟨2, ![4, 4]⟩
abbrev S16x10 : Shape := ⟨2, ![16, 10]⟩
abbrev S16x4 : Shape := ⟨2, ![16, 4]⟩
abbrev S16 : Shape := ⟨1, ![16]⟩
abbrev S10x16 : Shape := ⟨2, ![10, 16]⟩
abbrev S4194304x16 : Shape := ⟨2, ![4194304, 16]⟩
abbrev S4x16 : Shape := ⟨2, ![4, 16]⟩
abbrev S1x16 : Shape := ⟨2, ![1, 16]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S4194304x10, .f32⟩
  | .hbm, ⟨1, _⟩ => ⟨S4194304x4, .f32⟩
  | .hbm, ⟨2, _⟩ => ⟨S4194304x4, .f32⟩
  | .hbm, ⟨3, _⟩ => ⟨S4x10, .f32⟩
  | .hbm, ⟨4, _⟩ => ⟨S4, .f32⟩
  | .hbm, ⟨5, _⟩ => ⟨S4x10, .f32⟩
  | .hbm, ⟨6, _⟩ => ⟨S4, .f32⟩
  | .hbm, ⟨7, _⟩ => ⟨S4x10, .f32⟩
  | .hbm, ⟨8, _⟩ => ⟨S4, .f32⟩
  | .hbm, ⟨9, _⟩ => ⟨S4x10, .f32⟩
  | .hbm, ⟨10, _⟩ => ⟨S4, .f32⟩
  | .hbm, ⟨11, _⟩ => ⟨S4x4, .f32⟩
  | .hbm, ⟨12, _⟩ => ⟨S4, .f32⟩
  | .hbm, ⟨13, _⟩ => ⟨S4x4, .f32⟩
  | .hbm, ⟨14, _⟩ => ⟨S4, .f32⟩
  | .hbm, ⟨15, _⟩ => ⟨S4x4, .f32⟩
  | .hbm, ⟨16, _⟩ => ⟨S4, .f32⟩
  | .hbm, ⟨17, _⟩ => ⟨S4x4, .f32⟩
  | .hbm, ⟨18, _⟩ => ⟨S4, .f32⟩
  | .hbm, ⟨19, _⟩ => ⟨S16x10, .f32⟩
  | .hbm, ⟨20, _⟩ => ⟨S16x4, .f32⟩
  | .hbm, ⟨21, _⟩ => ⟨S16, .f32⟩
  | .hbm, ⟨22, _⟩ => ⟨S16, .f32⟩
  | .hbm, ⟨23, _⟩ => ⟨S10x16, .f32⟩
  | .hbm, ⟨24, _⟩ => ⟨S4194304x16, .f32⟩
  | .hbm, ⟨25, _⟩ => ⟨S4x16, .f32⟩
  | .hbm, ⟨26, _⟩ => ⟨S4194304x16, .f32⟩
  | .hbm, ⟨27, _⟩ => ⟨S4194304x16, .f32⟩
  | .hbm, ⟨28, _⟩ => ⟨S16, .f32⟩
  | .hbm, ⟨29, _⟩ => ⟨S1x16, .f32⟩
  | .hbm, ⟨30, _⟩ => ⟨S4194304x16, .f32⟩
  | .hbm, ⟨31, _⟩ => ⟨S4194304x16, .f32⟩
  | .hbm, ⟨32, _⟩ => ⟨S4194304x4, .f32⟩
  | .hbm, ⟨33, _⟩ => ⟨S4194304x4, .f32⟩
  | .hbm, ⟨34, _⟩ => ⟨S4194304x4, .f32⟩
  | .hbm, ⟨35, _⟩ => ⟨S4194304x4, .f32⟩
  | .hbm, ⟨36, _⟩ => ⟨S4194304x4, .f32⟩
  | .hbm, ⟨37, _⟩ => ⟨S4194304x4, .f32⟩
  | .hbm, ⟨38, _⟩ => ⟨S_, .f32⟩
  | .hbm, ⟨39, _⟩ => ⟨S4194304x4, .f32⟩
  | .hbm, ⟨40, _⟩ => ⟨S4194304x4, .f32⟩
  | .hbm, ⟨41, _⟩ => ⟨S_, .f32⟩
  | .hbm, ⟨42, _⟩ => ⟨S4194304x4, .f32⟩
  | .hbm, ⟨43, _⟩ => ⟨S4194304x4, .f32⟩
  | .hbm, ⟨44, _⟩ => ⟨S4194304x4, .f32⟩
  | .hbm, ⟨45, _⟩ => ⟨S4194304x4, .f32⟩
  | .hbm, ⟨46, _⟩ => ⟨S_, .f32⟩
  | .hbm, ⟨47, _⟩ => ⟨S4194304x4, .f32⟩
  | .hbm, ⟨48, _⟩ => ⟨S4194304x4, .f32⟩
  | .hbm, ⟨49, _⟩ => ⟨S_, .f32⟩
  | .hbm, ⟨50, _⟩ => ⟨S4194304x4, .f32⟩
  | .hbm, ⟨51, _⟩ => ⟨S4194304x4, .f32⟩
  | .hbm, ⟨52, _⟩ => ⟨S4194304x4, .f32⟩
  | .hbm, ⟨53, _⟩ => ⟨S4194304x4, .f32⟩
  | .hbm, ⟨54, _⟩ => ⟨S4194304x4, .f32⟩
  | .hbm, ⟨55, _⟩ => ⟨S_, .f32⟩
  | .hbm, ⟨56, _⟩ => ⟨S4194304x4, .f32⟩
  | .hbm, ⟨57, _⟩ => ⟨S4194304x4, .f32⟩
  | .hbm, ⟨58, _⟩ => ⟨S_, .f32⟩
  | .hbm, ⟨59, _⟩ => ⟨S4194304x4, .f32⟩
  | .hbm, ⟨60, _⟩ => ⟨S4194304x4, .f32⟩
  | .hbm, ⟨61, _⟩ => ⟨S4194304x4, .f32⟩
  | .hbm, ⟨62, _⟩ => ⟨S4194304x4, .f32⟩
  | .hbm, ⟨63, _⟩ => ⟨S4194304x4, .f32⟩
  | .hbm, ⟨64, _⟩ => ⟨S4194304x4, .f32⟩
  | .hbm, ⟨65, _⟩ => ⟨S4194304x4, .f32⟩
  | _, _ => ⟨S4194304x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S4x10_S4x10_S4x10_S4x10_S16x10_d0 : Shape.Concatenates [S4x10, S4x10, S4x10, S4x10] S16x10 0
  concatenates_S4x4_S4x4_S4x4_S4x4_S16x4_d0 : Shape.Concatenates [S4x4, S4x4, S4x4, S4x4] S16x4 0
  concatenates_S4_S4_S4_S4_S16_d0 : Shape.Concatenates [S4, S4, S4, S4] S16 0
  transposes_S16x10_S10x16_1_0 : S16x10.Transposes [1, 0] S10x16
  transposes_S16x4_S4x16_1_0 : S16x4.Transposes [1, 0] S4x16
  bcast_S16_S1x16_1 : S16.BroadcastsInDim S1x16 (![1] : Fin 1 → Fin S1x16.rank)
  bcast_S1x16_S4194304x16_0_1 : S1x16.BroadcastsInDim S4194304x16 (![0, 1] : Fin 2 → Fin S4194304x16.rank)
  slices_S4194304x16_S4194304x4_0_0 : S4194304x16.Slices ![0, 0] S4194304x4
  slices_S4194304x16_S4194304x4_0_4 : S4194304x16.Slices ![0, 4] S4194304x4
  slices_S4194304x16_S4194304x4_0_8 : S4194304x16.Slices ![0, 8] S4194304x4
  slices_S4194304x16_S4194304x4_0_12 : S4194304x16.Slices ![0, 12] S4194304x4
  bcast_S_S4194304x4 : S_.BroadcastsInDim S4194304x4 (![] : Fin 0 → Fin S4194304x4.rank)
  dot_S4194304x10_S10x16_S4194304x16_1_0_0_1_n_n_wf : DotDims.WF S4194304x10 S10x16 S4194304x16 [1] [0] [0] [1] [] []
  dot_S4194304x4_S4x16_S4194304x16_1_0_0_1_n_n_wf : DotDims.WF S4194304x4 S4x16 S4194304x16 [1] [0] [0] [1] [] []

variable [Facts₀]

def dot_S4194304x10_S10x16_S4194304x16_1_0_0_1_n_n : DotDims S4194304x10 S10x16 S4194304x16 where
  lhsContracting := [1]
  rhsContracting := [0]
  lhsNonContracting := [0]
  rhsNonContracting := [1]
  lhsBatch := []
  rhsBatch := []
  wf := dot_S4194304x10_S10x16_S4194304x16_1_0_0_1_n_n_wf
def dot_S4194304x4_S4x16_S4194304x16_1_0_0_1_n_n : DotDims S4194304x4 S4x16 S4194304x16 where
  lhsContracting := [1]
  rhsContracting := [0]
  lhsNonContracting := [0]
  rhsNonContracting := [1]
  lhsBatch := []
  rhsBatch := []
  wf := dot_S4194304x4_S4x16_S4194304x16_1_0_0_1_n_n_wf

class Facts : Prop extends Facts₀ where

variable [Facts]
-- ==== Proof.KernelEntry.lean ====
/-
  The LSTM-cell program up to its one pipelined region, and what the region finds.

  @main first stacks the four input-to-gate weight matrices and the four hidden-to-gate ones ([4,10] and [4,4] each, along
  axis 0), stacks the eight bias vectors four and four, transposes the two stacked matrices to [10,16] and [4,16], adds
  the two stacked biases and reshapes the sum to [1,16]: eight host operations, none of which writes an argument array.
  Then comes the region: a grid of 1024 points over the batch axis, point t holding rows 4096·t … 4096·t + 4095 of
  x, h, c (windows 0, 1, 2: block index (t, 0)), the three small weight arrays whole at every point (windows 3, 4, 5:
  block index (0, 0), so fetched at the first point only and kept afterwards), and the same rows of the two results
  (windows 6 and 7).

  Here: the buffers' contents when the region is entered (`atEntry`, the eight operations applied to the launch memory),
  that each argument array is there as launched, a window's block at a point read off those contents (`blockAt`), that
  an input window's staging buffer holds exactly that block when the body is called, and that a run of @main ending in
  the pipeline library's frame post leaves the nineteen argument arrays unchanged.
-/
import proofs.«172816_j83090437308833_2_alg».proof.Proof.Gen.Kernel.Launch
import proofs.«172816_j83090437308833_2_alg».proof.Proof.Gen.Kernel.Skeleton
import proofs.«172816_j83090437308833_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the eight host operations. -/
abbrev atEntry (c : Dev nD) (b : Ref sig .tc) : Buf (Elt F) ((c : Thread nD τ).loc b) :=
  StableHlo.after (List.flatten [hostOps0]) (fun b => m (c, b)) b

/-- The eight operations write into buffers @main already has: none allocates. -/
theorem prefix_fresh : (hostOps0 : List (HloOp τ sig (Elt F))).Forall fun op => op.fresh = ∅ := by
  simp only [List.Forall]; repeat' constructor

/-- @main is the eight host operations, then the region. -/
theorem main_upto_region (𝒱₀ : Variants) : Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact prefix_fresh) main_chain

/-- None of the eight operations writes argument 0: the region finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 1: the region finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 2: the region finds it as launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 3: the region finds it as launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 4: the region finds it as launched. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 5: the region finds it as launched. -/
theorem entry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 6: the region finds it as launched. -/
theorem entry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 7: the region finds it as launched. -/
theorem entry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 8: the region finds it as launched. -/
theorem entry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 9: the region finds it as launched. -/
theorem entry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 10: the region finds it as launched. -/
theorem entry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 11: the region finds it as launched. -/
theorem entry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 12: the region finds it as launched. -/
theorem entry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 13: the region finds it as launched. -/
theorem entry_arg13 (c : Dev nD) : atEntry m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 14: the region finds it as launched. -/
theorem entry_arg14 (c : Dev nD) : atEntry m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 15: the region finds it as launched. -/
theorem entry_arg15 (c : Dev nD) : atEntry m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 16: the region finds it as launched. -/
theorem entry_arg16 (c : Dev nD) : atEntry m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 17: the region finds it as launched. -/
theorem entry_arg17 (c : Dev nD) : atEntry m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 18: the region finds it as launched. -/
theorem entry_arg18 (c : Dev nD) : atEntry m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds the window's block at every point, whether the block was fetched
    there or (its index unchanged since the point before) kept: for any proof data over the region-entry arrays whose
    body leaves the block in place. -/
theorem held0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds the window's block at every point, whether the block was fetched
    there or (its index unchanged since the point before) kept: for any proof data over the region-entry arrays whose
    body leaves the block in place. -/
theorem held1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds the window's block at every point, whether the block was fetched
    there or (its index unchanged since the point before) kept: for any proof data over the region-entry arrays whose
    body leaves the block in place. -/
theorem held2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds the window's block at every point, whether the block was fetched
    there or (its index unchanged since the point before) kept: for any proof data over the region-entry arrays whose
    body leaves the block in place. -/
theorem held3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds the window's block at every point, whether the block was fetched
    there or (its index unchanged since the point before) kept: for any proof data over the region-entry arrays whose
    body leaves the block in place. -/
theorem held4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds the window's block at every point, whether the block was fetched
    there or (its index unchanged since the point before) kept: for any proof data over the region-entry arrays whose
    body leaves the block in place. -/
theorem held5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The argument arrays after a run -/

/-- A run of @main that ends in the pipeline library's frame post — every array a window stages at what the proof data
    computes, every other buffer as the region found it — leaves the nineteen argument arrays as launched: x, h, c are
    staged by input windows, which never write back; the sixteen weight and bias arrays are staged by no window. -/
theorem args_kept_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c),
      ((h c).2 main_arg18 (Pipeline.mem_restRefs_of main_arg18 (by decide) (by decide))).trans (entry_arg18 m c)⟩) h

end Cert.Kernel.Cell

end
-- ==== Proof.KernelRun.lean ====
/-
  The LSTM-cell kernel body at one grid point, and the run of @main.

  The body loads its six input blocks whole — 4096 rows of x, h and c, the [10,16] and [4,16] weight matrices and the
  [1,16] bias —, computes the sixteen pre-activations of every row, the new cell state and the new hidden state, and
  stores each of the two results over the WHOLE of its output block. So after the body the hidden-state block holds the
  body's hidden-state value of the six input blocks and the cell-state block its cell-state value, whatever either
  held before, and the input blocks are as they were. With the pipeline's proof data saying exactly that at every
  point, the pipeline library's launch theorem runs @main to the end: nothing faults, and every array a window stages
  ends at what the points wrote back.
-/
import proofs.«172816_j83090437308833_2_alg».proof.Proof.KernelEntry

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole block -/

abbrev wholeX : Rect S4096x10 := Rect.unit (s := S4096x10) ![0, 0] S4096x10.size inb_S4096x10_S4096x10_0_0
abbrev wholeR : Rect S4096x4 := Rect.unit (s := S4096x4) ![0, 0] S4096x4.size inb_S4096x4_S4096x4_0_0
abbrev wholeWx : Rect S10x16 := Rect.unit (s := S10x16) ![0, 0] S10x16.size inb_S10x16_S10x16_0_0
abbrev wholeWh : Rect S4x16 := Rect.unit (s := S4x16) ![0, 0] S4x16.size inb_S4x16_S4x16_0_0
abbrev wholeB : Rect S1x16 := Rect.unit (s := S1x16) ![0, 0] S1x16.size inb_S1x16_S1x16_0_0

/-! ## What the body leaves in the two output blocks -/

/-- The hidden-state block after the body: its one store, of the new hidden state of the six loaded blocks. -/
def hidOut (x0 : Vec F S4096x10 .f32) (x1 x2 : Vec F S4096x4 .f32) (x3 : Vec F S10x16 .f32) (x4 : Vec F S4x16 .f32) (x5 : Vec F S1x16 .f32) : Vec F S4096x4 .f32 :=
  View.canon [⟨wholeR, k0_pay3 (View.ld x0 wholeX) (View.ld x1 wholeR) (View.ld x2 wholeR) (View.ld x3 wholeWx) (View.ld x4 wholeWh) (View.ld x5 wholeB)⟩]

/-- The cell-state block after the body: its one store, of the new cell state of the six loaded blocks. -/
def cellOut (x0 : Vec F S4096x10 .f32) (x1 x2 : Vec F S4096x4 .f32) (x3 : Vec F S10x16 .f32) (x4 : Vec F S4x16 .f32) (x5 : Vec F S1x16 .f32) : Vec F S4096x4 .f32 :=
  View.canon [⟨wholeR, k0_pay2 (View.ld x0 wholeX) (View.ld x1 wholeR) (View.ld x2 wholeR) (View.ld x3 wholeWx) (View.ld x4 wholeWh) (View.ld x5 wholeB)⟩]

/-- One store over the whole block covers the block. -/
theorem whole_covers (p0 : Vec F S4096x4 .f32) (y : S4096x4.Idx) :
    ∃ pc ∈ ([⟨wholeR, p0⟩] : List (View.Piece (Elt F) S4096x4 .f32)), y ∈ pc.1.set :=
  View.cover_of_tiled [⟨wholeR, p0⟩] S4096x4.size (by rfl) y

/-! ## The body's triple -/

set_option maxHeartbeats 1000000 in
/-- The body on eight whole staging memrefs, the six inputs' at contents `x0 … x5` and the two outputs' at anything,
    runs without a fault to a state holding the inputs' as they were and the outputs' at `hidOut` and `cellOut` of the
    inputs. (The body also loads each output block before storing over it; the loaded value is used nowhere.) -/
theorem body_triple (c : Dev nD) (E : Set ℕ) (i : grid0.Coords) (arg1 : Memref sig .tc .vmem S4096x10 .f32) (harg1 : arg1.IsWhole) (arg2 : Memref sig .tc .vmem S4096x4 .f32) (harg2 : arg2.IsWhole) (arg3 : Memref sig .tc .vmem S4096x4 .f32) (harg3 : arg3.IsWhole) (arg4 : Memref sig .tc .vmem S10x16 .f32) (harg4 : arg4.IsWhole) (arg5 : Memref sig .tc .vmem S4x16 .f32) (harg5 : arg5.IsWhole) (arg6 : Memref sig .tc .vmem S1x16 .f32) (harg6 : arg6.IsWhole) (arg7 : Memref sig .tc .vmem S4096x4 .f32) (harg7 : arg7.IsWhole) (arg8 : Memref sig .tc .vmem S4096x4 .f32) (harg8 : arg8.IsWhole)
    (x0 : Vec F S4096x10 .f32) (x1 x2 : Vec F S4096x4 .f32) (x3 : Vec F S10x16 .f32) (x4 : Vec F S4x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hidOut x0 x1 x2 x3 x4 x5) ∗ owns (c : Thread nD τ) arg8 fullShare (cellOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_covers _)
  iexists _; isplitr
  swap; · iexact H7
  ipureintro
  exact View.read_writes_eq_canon _ _ _ (whole_covers _)

/-! ## The pipeline's proof data -/

/-- What the pipeline's staging buffers hold on core `c`: the arrays as the region finds them; after the body at point
    `t` each input window's buffer still at its block, the hidden-state window's at `hidOut` and the cell-state window's
    at `cellOut` of the six input blocks at `t`; the kernel keeps nothing of its own between points. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hidOut (blockAt m c 0 t) (blockAt m c 1 t) (blockAt m c 2 t) (blockAt m c 3 t) (blockAt m c 4 t) (blockAt m c 5 t)
    | ⟨7, _⟩ => cellOut (blockAt m c 0 t) (blockAt m c 1 t) (blockAt m c 2 t) (blockAt m c 3 t) (blockAt m c 4 t) (blockAt m c 5 t)
  Φ _ := Pipeline.ΦA spec0 c
  q _ := fullShare
  owed _ := 0

/-- The proof data's arrays are the region-entry contents. -/
theorem pdata_arr (c : Dev nD) (w : Fin cfg0.W) : (pdata m 0 c).A w = atEntry m c (Pipeline.arrRef spec0 w) := by
  dsimp only [pdata]

theorem pdata_after0 (c : Dev nD) (t : Fin cfg0.N) : (pdata m 0 c).after 0 t = blockAt m c 0 t := by dsimp only [pdata]
theorem pdata_after1 (c : Dev nD) (t : Fin cfg0.N) : (pdata m 0 c).after 1 t = blockAt m c 1 t := by dsimp only [pdata]
theorem pdata_after2 (c : Dev nD) (t : Fin cfg0.N) : (pdata m 0 c).after 2 t = blockAt m c 2 t := by dsimp only [pdata]
theorem pdata_after3 (c : Dev nD) (t : Fin cfg0.N) : (pdata m 0 c).after 3 t = blockAt m c 3 t := by dsimp only [pdata]
theorem pdata_after4 (c : Dev nD) (t : Fin cfg0.N) : (pdata m 0 c).after 4 t = blockAt m c 4 t := by dsimp only [pdata]
theorem pdata_after5 (c : Dev nD) (t : Fin cfg0.N) : (pdata m 0 c).after 5 t = blockAt m c 5 t := by dsimp only [pdata]
theorem pdata_after6 (c : Dev nD) (t : Fin cfg0.N) : (pdata m 0 c).after 6 t = hidOut (blockAt m c 0 t) (blockAt m c 1 t) (blockAt m c 2 t) (blockAt m c 3 t) (blockAt m c 4 t) (blockAt m c 5 t) := by dsimp only [pdata]
theorem pdata_after7 (c : Dev nD) (t : Fin cfg0.N) : (pdata m 0 c).after 7 t = cellOut (blockAt m c 0 t) (blockAt m c 1 t) (blockAt m c 2 t) (blockAt m c 3 t) (blockAt m c 4 t) (blockAt m c 5 t) := by dsimp only [pdata]

/-- Input window 0's buffer holds its block when the body is called at `t`. -/
theorem held0 (c : Dev nD) (t : Fin cfg0.N) (d) : (pdata m 0 c).before 0 t d = blockAt m c 0 t :=
  held0_of m (pdata m 0 c) (pdata_arr m c 0) (pdata_after0 m c) t d
/-- Input window 1's buffer holds its block when the body is called at `t`. -/
theorem held1 (c : Dev nD) (t : Fin cfg0.N) (d) : (pdata m 0 c).before 1 t d = blockAt m c 1 t :=
  held1_of m (pdata m 0 c) (pdata_arr m c 1) (pdata_after1 m c) t d
/-- Input window 2's buffer holds its block when the body is called at `t`. -/
theorem held2 (c : Dev nD) (t : Fin cfg0.N) (d) : (pdata m 0 c).before 2 t d = blockAt m c 2 t :=
  held2_of m (pdata m 0 c) (pdata_arr m c 2) (pdata_after2 m c) t d
/-- Input window 3's buffer holds its block when the body is called at `t`. -/
theorem held3 (c : Dev nD) (t : Fin cfg0.N) (d) : (pdata m 0 c).before 3 t d = blockAt m c 3 t :=
  held3_of m (pdata m 0 c) (pdata_arr m c 3) (pdata_after3 m c) t d
/-- Input window 4's buffer holds its block when the body is called at `t`. -/
theorem held4 (c : Dev nD) (t : Fin cfg0.N) (d) : (pdata m 0 c).before 4 t d = blockAt m c 4 t :=
  held4_of m (pdata m 0 c) (pdata_arr m c 4) (pdata_after4 m c) t d
/-- Input window 5's buffer holds its block when the body is called at `t`. -/
theorem held5 (c : Dev nD) (t : Fin cfg0.N) (d) : (pdata m 0 c).before 5 t d = blockAt m c 5 t :=
  held5_of m (pdata m 0 c) (pdata_arr m c 5) (pdata_after5 m c) t d

/-! ## The body obligation, at a generic point -/

/-- What the body is called with at point `t`, the windows one by one, -/
def pointPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d)))

/-- and what it returns. -/
def pointPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t))

/-- The body at any point: the six input buffers hold their blocks, so the body's triple applies; what the kernel does
    not touch passes through. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [held0, held1, held2, held3, held4, held5]
  rw [show (pdata m 0 c).Φ t.succ = (pdata m 0 c).Φ t.castSucc from rfl,
    show (pdata m 0 c).owesAt () t.succ = (pdata m 0 c).owesAt () t.castSucc from rfl,
    pdata_after0, pdata_after1, pdata_after2, pdata_after3, pdata_after4, pdata_after5, pdata_after6, pdata_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_everywhere (c : Dev nD) : BodyObligation (pdata (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates without a fault, and in every
    final state each array a window stages is what the proof data computes and every other buffer is as the region
    found it. -/
theorem run_to_post : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_everywhere m c).loose) (hshare := fun c => (pdata m 0 c).share_full fun _ => rfl)
    (howed := fun _ _ => rfl) (V := atEntry m) (hmain := main_upto_region m Variants.none) (hA := pdata_arr m) (hΦ := fun _ _ => rfl)

/-- The frame: @main runs to the end and leaves its nineteen argument arrays unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  args_kept_of m ρ (pdata m) (pdata_arr m) (run_to_post m ρ)

end Cert.Kernel.Cell

end
-- ==== Proof.KernelIdealEntry.lean ====
/-
  The LSTM-cell program up to its one pipelined region, and what the region finds.

  @main first stacks the four input-to-gate weight matrices and the four hidden-to-gate ones ([4,10] and [4,4] each, along
  axis 0), stacks the eight bias vectors four and four, transposes the two stacked matrices to [10,16] and [4,16], adds
  the two stacked biases and reshapes the sum to [1,16]: eight host operations, none of which writes an argument array.
  Then comes the region: a grid of 1024 points over the batch axis, point t holding rows 4096·t … 4096·t + 4095 of
  x, h, c (windows 0, 1, 2: block index (t, 0)), the three small weight arrays whole at every point (windows 3, 4, 5:
  block index (0, 0), so fetched at the first point only and kept afterwards), and the same rows of the two results
  (windows 6 and 7).

  Here: the buffers' contents when the region is entered (`atEntry`, the eight operations applied to the launch memory),
  that each argument array is there as launched, a window's block at a point read off those contents (`blockAt`), that
  an input window's staging buffer holds exactly that block when the body is called, and that a run of @main ending in
  the pipeline library's frame post leaves the nineteen argument arrays unchanged.
-/
import proofs.«172816_j83090437308833_2_alg».proof.Proof.Gen.KernelIdeal.Launch
import proofs.«172816_j83090437308833_2_alg».proof.Proof.Gen.KernelIdeal.Skeleton
import proofs.«172816_j83090437308833_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the eight host operations. -/
abbrev atEntry (c : Dev nD) (b : Ref sig .tc) : Buf (Elt F) ((c : Thread nD τ).loc b) :=
  StableHlo.after (List.flatten [hostOps0]) (fun b => m (c, b)) b

/-- The eight operations write into buffers @main already has: none allocates. -/
theorem prefix_fresh : (hostOps0 : List (HloOp τ sig (Elt F))).Forall fun op => op.fresh = ∅ := by
  simp only [List.Forall]; repeat' constructor

/-- @main is the eight host operations, then the region. -/
theorem main_upto_region (𝒱₀ : Variants) : Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact prefix_fresh) main_chain

/-- None of the eight operations writes argument 0: the region finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 1: the region finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 2: the region finds it as launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 3: the region finds it as launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 4: the region finds it as launched. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 5: the region finds it as launched. -/
theorem entry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 6: the region finds it as launched. -/
theorem entry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 7: the region finds it as launched. -/
theorem entry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 8: the region finds it as launched. -/
theorem entry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 9: the region finds it as launched. -/
theorem entry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 10: the region finds it as launched. -/
theorem entry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 11: the region finds it as launched. -/
theorem entry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 12: the region finds it as launched. -/
theorem entry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 13: the region finds it as launched. -/
theorem entry_arg13 (c : Dev nD) : atEntry m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 14: the region finds it as launched. -/
theorem entry_arg14 (c : Dev nD) : atEntry m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 15: the region finds it as launched. -/
theorem entry_arg15 (c : Dev nD) : atEntry m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 16: the region finds it as launched. -/
theorem entry_arg16 (c : Dev nD) : atEntry m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 17: the region finds it as launched. -/
theorem entry_arg17 (c : Dev nD) : atEntry m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- None of the eight operations writes argument 18: the region finds it as launched. -/
theorem entry_arg18 (c : Dev nD) : atEntry m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds the window's block at every point, whether the block was fetched
    there or (its index unchanged since the point before) kept: for any proof data over the region-entry arrays whose
    body leaves the block in place. -/
theorem held0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds the window's block at every point, whether the block was fetched
    there or (its index unchanged since the point before) kept: for any proof data over the region-entry arrays whose
    body leaves the block in place. -/
theorem held1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds the window's block at every point, whether the block was fetched
    there or (its index unchanged since the point before) kept: for any proof data over the region-entry arrays whose
    body leaves the block in place. -/
theorem held2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds the window's block at every point, whether the block was fetched
    there or (its index unchanged since the point before) kept: for any proof data over the region-entry arrays whose
    body leaves the block in place. -/
theorem held3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds the window's block at every point, whether the block was fetched
    there or (its index unchanged since the point before) kept: for any proof data over the region-entry arrays whose
    body leaves the block in place. -/
theorem held4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds the window's block at every point, whether the block was fetched
    there or (its index unchanged since the point before) kept: for any proof data over the region-entry arrays whose
    body leaves the block in place. -/
theorem held5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The argument arrays after a run -/

/-- A run of @main that ends in the pipeline library's frame post — every array a window stages at what the proof data
    computes, every other buffer as the region found it — leaves the nineteen argument arrays as launched: x, h, c are
    staged by input windows, which never write back; the sixteen weight and bias arrays are staged by no window. -/
theorem args_kept_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c),
      ((h c).2 main_arg18 (Pipeline.mem_restRefs_of main_arg18 (by decide) (by decide))).trans (entry_arg18 m c)⟩) h

end Cert.KernelIdeal.Cell

end
-- ==== Proof.KernelIdealRun.lean ====
/-
  The LSTM-cell kernel body at one grid point, and the run of @main.

  The body loads its six input blocks whole — 4096 rows of x, h and c, the [10,16] and [4,16] weight matrices and the
  [1,16] bias —, computes the sixteen pre-activations of every row, the new cell state and the new hidden state, and
  stores each of the two results over the WHOLE of its output block. So after the body the hidden-state block holds the
  body's hidden-state value of the six input blocks and the cell-state block its cell-state value, whatever either
  held before, and the input blocks are as they were. With the pipeline's proof data saying exactly that at every
  point, the pipeline library's launch theorem runs @main to the end: nothing faults, and every array a window stages
  ends at what the points wrote back.
-/
import proofs.«172816_j83090437308833_2_alg».proof.Proof.KernelIdealEntry

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole block -/

abbrev wholeX : Rect S4096x10 := Rect.unit (s := S4096x10) ![0, 0] S4096x10.size inb_S4096x10_S4096x10_0_0
abbrev wholeR : Rect S4096x4 := Rect.unit (s := S4096x4) ![0, 0] S4096x4.size inb_S4096x4_S4096x4_0_0
abbrev wholeWx : Rect S10x16 := Rect.unit (s := S10x16) ![0, 0] S10x16.size inb_S10x16_S10x16_0_0
abbrev wholeWh : Rect S4x16 := Rect.unit (s := S4x16) ![0, 0] S4x16.size inb_S4x16_S4x16_0_0
abbrev wholeB : Rect S1x16 := Rect.unit (s := S1x16) ![0, 0] S1x16.size inb_S1x16_S1x16_0_0

/-! ## What the body leaves in the two output blocks -/

/-- The hidden-state block after the body: its one store, of the new hidden state of the six loaded blocks. -/
def hidOut (x0 : Vec F S4096x10 .f32) (x1 x2 : Vec F S4096x4 .f32) (x3 : Vec F S10x16 .f32) (x4 : Vec F S4x16 .f32) (x5 : Vec F S1x16 .f32) : Vec F S4096x4 .f32 :=
  View.canon [⟨wholeR, k0_pay3 (View.ld x0 wholeX) (View.ld x1 wholeR) (View.ld x2 wholeR) (View.ld x3 wholeWx) (View.ld x4 wholeWh) (View.ld x5 wholeB)⟩]

/-- The cell-state block after the body: its one store, of the new cell state of the six loaded blocks. -/
def cellOut (x0 : Vec F S4096x10 .f32) (x1 x2 : Vec F S4096x4 .f32) (x3 : Vec F S10x16 .f32) (x4 : Vec F S4x16 .f32) (x5 : Vec F S1x16 .f32) : Vec F S4096x4 .f32 :=
  View.canon [⟨wholeR, k0_pay2 (View.ld x0 wholeX) (View.ld x1 wholeR) (View.ld x2 wholeR) (View.ld x3 wholeWx) (View.ld x4 wholeWh) (View.ld x5 wholeB)⟩]

/-- One store over the whole block covers the block. -/
theorem whole_covers (p0 : Vec F S4096x4 .f32) (y : S4096x4.Idx) :
    ∃ pc ∈ ([⟨wholeR, p0⟩] : List (View.Piece (Elt F) S4096x4 .f32)), y ∈ pc.1.set :=
  View.cover_of_tiled [⟨wholeR, p0⟩] S4096x4.size (by rfl) y

/-! ## The body's triple -/

set_option maxHeartbeats 1000000 in
/-- The body on eight whole staging memrefs, the six inputs' at contents `x0 … x5` and the two outputs' at anything,
    runs without a fault to a state holding the inputs' as they were and the outputs' at `hidOut` and `cellOut` of the
    inputs. (The body also loads each output block before storing over it; the loaded value is used nowhere.) -/
theorem body_triple (c : Dev nD) (E : Set ℕ) (i : grid0.Coords) (arg1 : Memref sig .tc .vmem S4096x10 .f32) (harg1 : arg1.IsWhole) (arg2 : Memref sig .tc .vmem S4096x4 .f32) (harg2 : arg2.IsWhole) (arg3 : Memref sig .tc .vmem S4096x4 .f32) (harg3 : arg3.IsWhole) (arg4 : Memref sig .tc .vmem S10x16 .f32) (harg4 : arg4.IsWhole) (arg5 : Memref sig .tc .vmem S4x16 .f32) (harg5 : arg5.IsWhole) (arg6 : Memref sig .tc .vmem S1x16 .f32) (harg6 : arg6.IsWhole) (arg7 : Memref sig .tc .vmem S4096x4 .f32) (harg7 : arg7.IsWhole) (arg8 : Memref sig .tc .vmem S4096x4 .f32) (harg8 : arg8.IsWhole)
    (x0 : Vec F S4096x10 .f32) (x1 x2 : Vec F S4096x4 .f32) (x3 : Vec F S10x16 .f32) (x4 : Vec F S4x16 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hidOut x0 x1 x2 x3 x4 x5) ∗ owns (c : Thread nD τ) arg8 fullShare (cellOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_covers _)
  iexists _; isplitr
  swap; · iexact H7
  ipureintro
  exact View.read_writes_eq_canon _ _ _ (whole_covers _)

/-! ## The pipeline's proof data -/

/-- What the pipeline's staging buffers hold on core `c`: the arrays as the region finds them; after the body at point
    `t` each input window's buffer still at its block, the hidden-state window's at `hidOut` and the cell-state window's
    at `cellOut` of the six input blocks at `t`; the kernel keeps nothing of its own between points. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hidOut (blockAt m c 0 t) (blockAt m c 1 t) (blockAt m c 2 t) (blockAt m c 3 t) (blockAt m c 4 t) (blockAt m c 5 t)
    | ⟨7, _⟩ => cellOut (blockAt m c 0 t) (blockAt m c 1 t) (blockAt m c 2 t) (blockAt m c 3 t) (blockAt m c 4 t) (blockAt m c 5 t)
  Φ _ := Pipeline.ΦA spec0 c
  q _ := fullShare
  owed _ := 0

/-- The proof data's arrays are the region-entry contents. -/
theorem pdata_arr (c : Dev nD) (w : Fin cfg0.W) : (pdata m 0 c).A w = atEntry m c (Pipeline.arrRef spec0 w) := by
  dsimp only [pdata]

theorem pdata_after0 (c : Dev nD) (t : Fin cfg0.N) : (pdata m 0 c).after 0 t = blockAt m c 0 t := by dsimp only [pdata]
theorem pdata_after1 (c : Dev nD) (t : Fin cfg0.N) : (pdata m 0 c).after 1 t = blockAt m c 1 t := by dsimp only [pdata]
theorem pdata_after2 (c : Dev nD) (t : Fin cfg0.N) : (pdata m 0 c).after 2 t = blockAt m c 2 t := by dsimp only [pdata]
theorem pdata_after3 (c : Dev nD) (t : Fin cfg0.N) : (pdata m 0 c).after 3 t = blockAt m c 3 t := by dsimp only [pdata]
theorem pdata_after4 (c : Dev nD) (t : Fin cfg0.N) : (pdata m 0 c).after 4 t = blockAt m c 4 t := by dsimp only [pdata]
theorem pdata_after5 (c : Dev nD) (t : Fin cfg0.N) : (pdata m 0 c).after 5 t = blockAt m c 5 t := by dsimp only [pdata]
theorem pdata_after6 (c : Dev nD) (t : Fin cfg0.N) : (pdata m 0 c).after 6 t = hidOut (blockAt m c 0 t) (blockAt m c 1 t) (blockAt m c 2 t) (blockAt m c 3 t) (blockAt m c 4 t) (blockAt m c 5 t) := by dsimp only [pdata]
theorem pdata_after7 (c : Dev nD) (t : Fin cfg0.N) : (pdata m 0 c).after 7 t = cellOut (blockAt m c 0 t) (blockAt m c 1 t) (blockAt m c 2 t) (blockAt m c 3 t) (blockAt m c 4 t) (blockAt m c 5 t) := by dsimp only [pdata]

/-- Input window 0's buffer holds its block when the body is called at `t`. -/
theorem held0 (c : Dev nD) (t : Fin cfg0.N) (d) : (pdata m 0 c).before 0 t d = blockAt m c 0 t :=
  held0_of m (pdata m 0 c) (pdata_arr m c 0) (pdata_after0 m c) t d
/-- Input window 1's buffer holds its block when the body is called at `t`. -/
theorem held1 (c : Dev nD) (t : Fin cfg0.N) (d) : (pdata m 0 c).before 1 t d = blockAt m c 1 t :=
  held1_of m (pdata m 0 c) (pdata_arr m c 1) (pdata_after1 m c) t d
/-- Input window 2's buffer holds its block when the body is called at `t`. -/
theorem held2 (c : Dev nD) (t : Fin cfg0.N) (d) : (pdata m 0 c).before 2 t d = blockAt m c 2 t :=
  held2_of m (pdata m 0 c) (pdata_arr m c 2) (pdata_after2 m c) t d
/-- Input window 3's buffer holds its block when the body is called at `t`. -/
theorem held3 (c : Dev nD) (t : Fin cfg0.N) (d) : (pdata m 0 c).before 3 t d = blockAt m c 3 t :=
  held3_of m (pdata m 0 c) (pdata_arr m c 3) (pdata_after3 m c) t d
/-- Input window 4's buffer holds its block when the body is called at `t`. -/
theorem held4 (c : Dev nD) (t : Fin cfg0.N) (d) : (pdata m 0 c).before 4 t d = blockAt m c 4 t :=
  held4_of m (pdata m 0 c) (pdata_arr m c 4) (pdata_after4 m c) t d
/-- Input window 5's buffer holds its block when the body is called at `t`. -/
theorem held5 (c : Dev nD) (t : Fin cfg0.N) (d) : (pdata m 0 c).before 5 t d = blockAt m c 5 t :=
  held5_of m (pdata m 0 c) (pdata_arr m c 5) (pdata_after5 m c) t d

/-! ## The body obligation, at a generic point -/

/-- What the body is called with at point `t`, the windows one by one, -/
def pointPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d)))

/-- and what it returns. -/
def pointPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t))

/-- The body at any point: the six input buffers hold their blocks, so the body's triple applies; what the kernel does
    not touch passes through. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [held0, held1, held2, held3, held4, held5]
  rw [show (pdata m 0 c).Φ t.succ = (pdata m 0 c).Φ t.castSucc from rfl,
    show (pdata m 0 c).owesAt () t.succ = (pdata m 0 c).owesAt () t.castSucc from rfl,
    pdata_after0, pdata_after1, pdata_after2, pdata_after3, pdata_after4, pdata_after5, pdata_after6, pdata_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_everywhere (c : Dev nD) : BodyObligation (pdata (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates without a fault, and in every
    final state each array a window stages is what the proof data computes and every other buffer is as the region
    found it. -/
theorem run_to_post : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_everywhere m c).loose) (hshare := fun c => (pdata m 0 c).share_full fun _ => rfl)
    (howed := fun _ _ => rfl) (V := atEntry m) (hmain := main_upto_region m Variants.none) (hA := pdata_arr m) (hΦ := fun _ _ => rfl)

/-- The frame: @main runs to the end and leaves its nineteen argument arrays unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  args_kept_of m ρ (pdata m) (pdata_arr m) (run_to_post m ρ)

end Cert.KernelIdeal.Cell

end
-- ==== Proof.LstmSpec.lean ====
/-
  The LSTM cell, one batch row at a time, on the extended reals.

  A row of the input `x` (10 entries) and of the hidden state `h` (4 entries) give sixteen pre-activations
      z k = (∑ d, x d · Wx d k) + (∑ d, h d · Wh d k) + b k,           k < 16,
  cut into four groups of four — input gate (k = j), forget gate (k = 4 + j), candidate (k = 8 + j) and output
  gate (k = 12 + j) —, and with the row of the cell state `c` (4 entries) the new cell state and hidden state are
      c' j = σ(z (4 + j)) · c j + σ(z j) · tanh (z (8 + j)),
      h' j = σ(z (12 + j)) · tanh (c' j),
  with σ the logistic function 1 / (1 + e^(-·)) and every operation the exact one of the extended reals.
  `Wx` is the 10 × 16 matrix of the four input-to-gate weight matrices stacked and transposed, `Wh` the 4 × 16 one of
  the four hidden-to-gate matrices, `b` the sum of the two stacked bias vectors; here they are parameters.
-/
import Idealize.ShloMosaic.PureOps.Ideal
import Idealize.ShloMosaic.Lib.ValueIdx

noncomputable section

namespace Lstm

open Idealize.ShloMosaic Idealize.ShloMosaic.ValueIdx

/-- Pre-activation `k` of one batch row: the row of `x` against column `k` of `Wx`, plus the row of `h` against
    column `k` of `Wh`, plus the bias. -/
def gate (xr : Fin 10 → EReal) (hr : Fin 4 → EReal) (Wx : Fin 10 → Fin 16 → EReal) (Wh : Fin 4 → Fin 16 → EReal)
    (b : Fin 16 → EReal) (k : Fin 16) : EReal :=
  (∑ d : Fin 10, xr d * Wx d k) + (∑ d : Fin 4, hr d * Wh d k) + b k

/-- Column `o + j` of the sixteen pre-activations, for a group offset `o ≤ 12`. -/
abbrev col (o : Nat) (ho : o + 4 ≤ 16) (j : Fin 4) : Fin 16 := ⟨o + j.val, by have := j.isLt; omega⟩

/-- The new cell state of one batch row at `j`: forget gate times the old cell state plus input gate times the
    candidate. -/
def cell (xr : Fin 10 → EReal) (hr cr : Fin 4 → EReal) (Wx : Fin 10 → Fin 16 → EReal) (Wh : Fin 4 → Fin 16 → EReal)
    (b : Fin 16 → EReal) (j : Fin 4) : EReal :=
  Ideal.logistic (gate xr hr Wx Wh b (col 4 (by norm_num) j)) * cr j
    + Ideal.logistic (gate xr hr Wx Wh b (col 0 (by norm_num) j)) * Ideal.tanh (gate xr hr Wx Wh b (col 8 (by norm_num) j))

/-- The new hidden state of one batch row at `j`: output gate times tanh of the new cell state. -/
def hid (xr : Fin 10 → EReal) (hr cr : Fin 4 → EReal) (Wx : Fin 10 → Fin 16 → EReal) (Wh : Fin 4 → Fin 16 → EReal)
    (b : Fin 16 → EReal) (j : Fin 4) : EReal :=
  Ideal.logistic (gate xr hr Wx Wh b (col 12 (by norm_num) j)) * Ideal.tanh (cell xr hr cr Wx Wh b j)

/-- Row `p` of a two-axis array, as a function of the column. -/
abbrev row {n c : Nat} (a : (⟨2, ![n, c]⟩ : Shape).Idx → EReal) (p : Fin n) : Fin c → EReal := fun d => a (ix2 p d)

/-- A two-axis array as a function of row and column. -/
abbrev mat {n c : Nat} (a : (⟨2, ![n, c]⟩ : Shape).Idx → EReal) : Fin n → Fin c → EReal := fun p d => a (ix2 p d)

/-- The new cell state of a batch of `n` rows, as one array: entry (p, j) is `cell` of row `p`. -/
def cellArr {n : Nat} (x : (⟨2, ![n, 10]⟩ : Shape).Idx → EReal) (h c : (⟨2, ![n, 4]⟩ : Shape).Idx → EReal)
    (Wx : (⟨2, ![10, 16]⟩ : Shape).Idx → EReal) (Wh : (⟨2, ![4, 16]⟩ : Shape).Idx → EReal) (b : Fin 16 → EReal) :
    (⟨2, ![n, 4]⟩ : Shape).Idx → EReal :=
  fun i => cell (row x (i 0)) (row h (i 0)) (row c (i 0)) (mat Wx) (mat Wh) b (i 1)

/-- The new hidden state of a batch of `n` rows, as one array: entry (p, j) is `hid` of row `p`. -/
def hidArr {n : Nat} (x : (⟨2, ![n, 10]⟩ : Shape).Idx → EReal) (h c : (⟨2, ![n, 4]⟩ : Shape).Idx → EReal)
    (Wx : (⟨2, ![10, 16]⟩ : Shape).Idx → EReal) (Wh : (⟨2, ![4, 16]⟩ : Shape).Idx → EReal) (b : Fin 16 → EReal) :
    (⟨2, ![n, 4]⟩ : Shape).Idx → EReal :=
  fun i => hid (row x (i 0)) (row h (i 0)) (row c (i 0)) (mat Wx) (mat Wh) b (i 1)

theorem cellArr_apply {n : Nat} (x : (⟨2, ![n, 10]⟩ : Shape).Idx → EReal) (h c : (⟨2, ![n, 4]⟩ : Shape).Idx → EReal)
    (Wx : (⟨2, ![10, 16]⟩ : Shape).Idx → EReal) (Wh : (⟨2, ![4, 16]⟩ : Shape).Idx → EReal) (b : Fin 16 → EReal)
    (p : Fin n) (j : Fin 4) :
    cellArr x h c Wx Wh b (ix2 p j) = cell (row x p) (row h p) (row c p) (mat Wx) (mat Wh) b j := rfl

theorem hidArr_apply {n : Nat} (x : (⟨2, ![n, 10]⟩ : Shape).Idx → EReal) (h c : (⟨2, ![n, 4]⟩ : Shape).Idx → EReal)
    (Wx : (⟨2, ![10, 16]⟩ : Shape).Idx → EReal) (Wh : (⟨2, ![4, 16]⟩ : Shape).Idx → EReal) (b : Fin 16 → EReal)
    (p : Fin n) (j : Fin 4) :
    hidArr x h c Wx Wh b (ix2 p j) = hid (row x p) (row h p) (row c p) (mat Wx) (mat Wh) b j := rfl

end Lstm

end
-- ==== Proof.BodyLstm.lean ====
/-
  The kernel body on one block of 4096 batch rows.

  From the six loaded blocks — the rows of x, h and c, the two stacked and transposed weight matrices and the bias row —
  the body forms the sixteen pre-activations of every row,
      z (p, k) = (∑ d, x (p, d) · Wx (d, k)) + (∑ d, h (p, d) · Wh (d, k)) + b (0, k),
  cuts them into the four gate groups of four columns, and stores
      c' (p, j) = σ(z (p, 4 + j)) · c (p, j) + σ(z (p, j)) · tanh (z (p, 8 + j)),
      h' (p, j) = σ(z (p, 12 + j)) · tanh (c' (p, j)).
  Here each of these is read at an index: a block product into the zero accumulator is the sum over the one contracted
  axis, a cast to the same shape is the identity, the bias row is repeated down the rows, a column slice shifts the
  column by its offset, and the remaining operations act entry by entry. The two stored arrays are therefore the
  specification's cell and hidden arrays of the block.
-/
import proofs.«172816_j83090437308833_2_alg».proof.Proof.Gen.KernelIdeal.Skeleton
import proofs.«172816_j83090437308833_2_alg».proof.Proof.LstmSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx

/-! ## The block product of the rows of x with Wx -/

/-- The left operand is read on the output's row … -/
theorem lhs_x_0 (i : S4096x16.Idx) (q : dot_S4096x10_S10x16_S4096x16_1_0_0_1_n_n.contr.Idx) :
    (dot_S4096x10_S10x16_S4096x16_1_0_0_1_n_n.lhsIdx i q 0).val = (i 0).val := by
  unfold DotDims.lhsIdx
  rw [dif_neg (show ¬(0 : Fin S4096x10.rank) ∈ dot_S4096x10_S10x16_S4096x16_1_0_0_1_n_n.lhsBatch by decide),
    dif_pos (show (0 : Fin S4096x10.rank) ∈ dot_S4096x10_S10x16_S4096x16_1_0_0_1_n_n.lhsNonContracting by decide)]
  rfl
/-- … and the contracted column; … -/
theorem lhs_x_1 (i : S4096x16.Idx) (q : dot_S4096x10_S10x16_S4096x16_1_0_0_1_n_n.contr.Idx) :
    (dot_S4096x10_S10x16_S4096x16_1_0_0_1_n_n.lhsIdx i q 1).val = (q ⟨0, by decide⟩).val :=
  dot_S4096x10_S10x16_S4096x16_1_0_0_1_n_n.lhsIdx_val_of_single rfl i q
/-- … the right operand on the contracted row … -/
theorem rhs_x_0 (i : S4096x16.Idx) (q : dot_S4096x10_S10x16_S4096x16_1_0_0_1_n_n.contr.Idx) :
    (dot_S4096x10_S10x16_S4096x16_1_0_0_1_n_n.rhsIdx i q 0).val = (q ⟨0, by decide⟩).val :=
  dot_S4096x10_S10x16_S4096x16_1_0_0_1_n_n.rhsIdx_val_of_single rfl i q
/-- … and the output's column. -/
theorem rhs_x_1 (i : S4096x16.Idx) (q : dot_S4096x10_S10x16_S4096x16_1_0_0_1_n_n.contr.Idx) :
    (dot_S4096x10_S10x16_S4096x16_1_0_0_1_n_n.rhsIdx i q 1).val = (i 1).val := by
  unfold DotDims.rhsIdx
  rw [dif_neg (show ¬(1 : Fin S10x16.rank) ∈ dot_S4096x10_S10x16_S4096x16_1_0_0_1_n_n.rhsBatch by decide),
    dif_pos (show (1 : Fin S10x16.rank) ∈ dot_S4096x10_S10x16_S4096x16_1_0_0_1_n_n.rhsNonContracting by decide)]
  rfl

/-- The product into the zero accumulator at (p, k) is the sum over the 10 contracted entries. -/
theorem mm_x_apply (a : FVec Ideal S4096x10 .f32) (w : FVec Ideal S10x16 .f32) (p : Fin 4096) (k : Fin 16) :
    matmul (F := Ideal) dot_S4096x10_S10x16_S4096x16_1_0_0_1_n_n none a w (constant (F := Ideal) S4096x16 .f32 0x00000000#32) (ix2 p k)
      = ∑ d : Fin 10, a (ix2 p d) * w (ix2 d k) := by
  simp only [matmul]
  rw [Ideal.matmul_constant_zero_apply,
    ← Equiv.sum_comp (contrEquiv1 dot_S4096x10_S10x16_S4096x16_1_0_0_1_n_n 10 rfl rfl).symm]
  refine Finset.sum_congr rfl fun d _ => ?_
  have hd := contrEquiv1_symm_val dot_S4096x10_S10x16_S4096x16_1_0_0_1_n_n 10 rfl rfl d
  have el : dot_S4096x10_S10x16_S4096x16_1_0_0_1_n_n.lhsIdx (ix2 p k) ((contrEquiv1 dot_S4096x10_S10x16_S4096x16_1_0_0_1_n_n 10 rfl rfl).symm d) = ix2 p d :=
    funext fun b => Fin.ext (by
      match b with
      | ⟨0, _⟩ => exact lhs_x_0 _ _
      | ⟨1, _⟩ => exact (lhs_x_1 _ _).trans hd)
  have er : dot_S4096x10_S10x16_S4096x16_1_0_0_1_n_n.rhsIdx (ix2 p k) ((contrEquiv1 dot_S4096x10_S10x16_S4096x16_1_0_0_1_n_n 10 rfl rfl).symm d) = ix2 d k :=
    funext fun b => Fin.ext (by
      match b with
      | ⟨0, _⟩ => exact (rhs_x_0 _ _).trans hd
      | ⟨1, _⟩ => exact rhs_x_1 _ _)
  rw [el, er]

/-! ## The block product of the rows of h with Wh -/

/-- The left operand is read on the output's row … -/
theorem lhs_h_0 (i : S4096x16.Idx) (q : dot_S4096x4_S4x16_S4096x16_1_0_0_1_n_n.contr.Idx) :
    (dot_S4096x4_S4x16_S4096x16_1_0_0_1_n_n.lhsIdx i q 0).val = (i 0).val := by
  unfold DotDims.lhsIdx
  rw [dif_neg (show ¬(0 : Fin S4096x4.rank) ∈ dot_S4096x4_S4x16_S4096x16_1_0_0_1_n_n.lhsBatch by decide),
    dif_pos (show (0 : Fin S4096x4.rank) ∈ dot_S4096x4_S4x16_S4096x16_1_0_0_1_n_n.lhsNonContracting by decide)]
  rfl
/-- … and the contracted column; … -/
theorem lhs_h_1 (i : S4096x16.Idx) (q : dot_S4096x4_S4x16_S4096x16_1_0_0_1_n_n.contr.Idx) :
    (dot_S4096x4_S4x16_S4096x16_1_0_0_1_n_n.lhsIdx i q 1).val = (q ⟨0, by decide⟩).val :=
  dot_S4096x4_S4x16_S4096x16_1_0_0_1_n_n.lhsIdx_val_of_single rfl i q
/-- … the right operand on the contracted row … -/
theorem rhs_h_0 (i : S4096x16.Idx) (q : dot_S4096x4_S4x16_S4096x16_1_0_0_1_n_n.contr.Idx) :
    (dot_S4096x4_S4x16_S4096x16_1_0_0_1_n_n.rhsIdx i q 0).val = (q ⟨0, by decide⟩).val :=
  dot_S4096x4_S4x16_S4096x16_1_0_0_1_n_n.rhsIdx_val_of_single rfl i q
/-- … and the output's column. -/
theorem rhs_h_1 (i : S4096x16.Idx) (q : dot_S4096x4_S4x16_S4096x16_1_0_0_1_n_n.contr.Idx) :
    (dot_S4096x4_S4x16_S4096x16_1_0_0_1_n_n.rhsIdx i q 1).val = (i 1).val := by
  unfold DotDims.rhsIdx
  rw [dif_neg (show ¬(1 : Fin S4x16.rank) ∈ dot_S4096x4_S4x16_S4096x16_1_0_0_1_n_n.rhsBatch by decide),
    dif_pos (show (1 : Fin S4x16.rank) ∈ dot_S4096x4_S4x16_S4096x16_1_0_0_1_n_n.rhsNonContracting by decide)]
  rfl

/-- The product into the zero accumulator at (p, k) is the sum over the 4 contracted entries. -/
theorem mm_h_apply (a : FVec Ideal S4096x4 .f32) (w : FVec Ideal S4x16 .f32) (p : Fin 4096) (k : Fin 16) :
    matmul (F := Ideal) dot_S4096x4_S4x16_S4096x16_1_0_0_1_n_n none a w (constant (F := Ideal) S4096x16 .f32 0x00000000#32) (ix2 p k)
      = ∑ d : Fin 4, a (ix2 p d) * w (ix2 d k) := by
  simp only [matmul]
  rw [Ideal.matmul_constant_zero_apply,
    ← Equiv.sum_comp (contrEquiv1 dot_S4096x4_S4x16_S4096x16_1_0_0_1_n_n 4 rfl rfl).symm]
  refine Finset.sum_congr rfl fun d _ => ?_
  have hd := contrEquiv1_symm_val dot_S4096x4_S4x16_S4096x16_1_0_0_1_n_n 4 rfl rfl d
  have el : dot_S4096x4_S4x16_S4096x16_1_0_0_1_n_n.lhsIdx (ix2 p k) ((contrEquiv1 dot_S4096x4_S4x16_S4096x16_1_0_0_1_n_n 4 rfl rfl).symm d) = ix2 p d :=
    funext fun b => Fin.ext (by
      match b with
      | ⟨0, _⟩ => exact lhs_h_0 _ _
      | ⟨1, _⟩ => exact (lhs_h_1 _ _).trans hd)
  have er : dot_S4096x4_S4x16_S4096x16_1_0_0_1_n_n.rhsIdx (ix2 p k) ((contrEquiv1 dot_S4096x4_S4x16_S4096x16_1_0_0_1_n_n 4 rfl rfl).symm d) = ix2 d k :=
    funext fun b => Fin.ext (by
      match b with
      | ⟨0, _⟩ => exact (rhs_h_0 _ _).trans hd
      | ⟨1, _⟩ => exact rhs_h_1 _ _)
  rw [el, er]

/-! ## The pre-activations -/

/-- The sixteen pre-activations of row p, at column k: the two block products and the bias row added. -/
theorem pre_apply (x0 : Vec Ideal S4096x10 .f32) (x1 : Vec Ideal S4096x4 .f32) (x3 : Vec Ideal S10x16 .f32)
    (x5 : Vec Ideal S4x16 .f32) (x7 : Vec Ideal S1x16 .f32) (p : Fin 4096) (k : Fin 16) :
    k0_pay1 (F := Ideal) x0 x1 x3 x5 x7 (ix2 p k)
      = Lstm.gate (Lstm.row x0 p) (Lstm.row x1 p) (Lstm.mat x3) (Lstm.mat x5) (fun k => x7 (ix2 0 k)) k := by
  unfold k0_pay1 Lstm.gate
  simp only [shapeCast_self, addf_apply, mm_x_apply, mm_h_apply, broadcastTo_1b_ab_apply]

/-! ## The four gate groups and the two stored values -/

/-- The group of four columns from o of the pre-activations, at (p, q), is column o + q of row p. -/
theorem group_apply (o : Nat) (ho : o + 4 ≤ 16) (z : FVec Ideal S4096x16 .f32) (h : S4096x16.Slices ![0, o] S4096x4)
    (p : Fin 4096) (q : Fin 4) :
    extractStridedSlice S4096x4 ![0, o] z h (ix2 p q) = z (ix2 p (Lstm.col o ho q)) :=
  slice2_axis1_apply o z h p q _ rfl

/-- The logistic function of an array acts entry by entry … -/
theorem logistic_apply {s : Shape} (a : FVec Ideal s .f32) (i : s.Idx) : logistic a i = Ideal.logistic (a i) := rfl
/-- … and so does the hyperbolic tangent. -/
theorem tanh_apply {s : Shape} (a : FVec Ideal s .f32) (i : s.Idx) : tanh a i = Ideal.tanh (a i) := rfl

/-- The new cell state the body stores, at (p, q). -/
theorem pay_cell_apply (x0 : Vec Ideal S4096x10 .f32) (x1 x2 : Vec Ideal S4096x4 .f32) (x3 : Vec Ideal S10x16 .f32)
    (x5 : Vec Ideal S4x16 .f32) (x7 : Vec Ideal S1x16 .f32) (p : Fin 4096) (q : Fin 4) :
    k0_pay2 (F := Ideal) x0 x1 x2 x3 x5 x7 (ix2 p q)
      = Lstm.cell (Lstm.row x0 p) (Lstm.row x1 p) (Lstm.row x2 p) (Lstm.mat x3) (Lstm.mat x5) (fun k => x7 (ix2 0 k)) q := by
  unfold k0_pay2 Lstm.cell
  simp only [addf_apply, mulf_apply, logistic_apply, tanh_apply,
    group_apply 0 (by norm_num), group_apply 4 (by norm_num), group_apply 8 (by norm_num), pre_apply]

/-- The new hidden state the body stores, at (p, q). -/
theorem pay_hid_apply (x0 : Vec Ideal S4096x10 .f32) (x1 x2 : Vec Ideal S4096x4 .f32) (x3 : Vec Ideal S10x16 .f32)
    (x5 : Vec Ideal S4x16 .f32) (x7 : Vec Ideal S1x16 .f32) (p : Fin 4096) (q : Fin 4) :
    k0_pay3 (F := Ideal) x0 x1 x2 x3 x5 x7 (ix2 p q)
      = Lstm.hid (Lstm.row x0 p) (Lstm.row x1 p) (Lstm.row x2 p) (Lstm.mat x3) (Lstm.mat x5) (fun k => x7 (ix2 0 k)) q := by
  unfold k0_pay3 Lstm.hid
  simp only [mulf_apply, logistic_apply, tanh_apply, group_apply 12 (by norm_num), pre_apply, pay_cell_apply]

/-- The stored cell state of the block is the specification's cell array. -/
theorem pay_cell (x0 : Vec Ideal S4096x10 .f32) (x1 x2 : Vec Ideal S4096x4 .f32) (x3 : Vec Ideal S10x16 .f32)
    (x5 : Vec Ideal S4x16 .f32) (x7 : Vec Ideal S1x16 .f32) :
    k0_pay2 (F := Ideal) x0 x1 x2 x3 x5 x7 = Lstm.cellArr x0 x1 x2 x3 x5 (fun k => x7 (ix2 0 k)) := by
  funext j
  obtain ⟨p, q, rfl⟩ : ∃ (p : Fin 4096) (q : Fin 4), j = ix2 p q := ⟨j 0, j 1, eq_ix2 j⟩
  rw [pay_cell_apply, Lstm.cellArr_apply]

/-- The stored hidden state of the block is the specification's hidden array. -/
theorem pay_hid (x0 : Vec Ideal S4096x10 .f32) (x1 x2 : Vec Ideal S4096x4 .f32) (x3 : Vec Ideal S10x16 .f32)
    (x5 : Vec Ideal S4x16 .f32) (x7 : Vec Ideal S1x16 .f32) :
    k0_pay3 (F := Ideal) x0 x1 x2 x3 x5 x7 = Lstm.hidArr x0 x1 x2 x3 x5 (fun k => x7 (ix2 0 k)) := by
  funext j
  obtain ⟨p, q, rfl⟩ : ∃ (p : Fin 4096) (q : Fin 4), j = ix2 p q := ⟨j 0, j 1, eq_ix2 j⟩
  rw [pay_hid_apply, Lstm.hidArr_apply]

end Cert.KernelIdeal.BodyValue

end
-- ==== Proof.KernelIdealValue.lean ====
/-
  What the LSTM-cell kernel's two result arrays hold after the run, as functions of the argument arrays.

  At grid point t the body's two stored values are the row-wise LSTM cell of the six blocks it loaded (the body module),
  and those blocks are: rows 4096·t … 4096·t + 4095 of x, h and c, and — whole, at every point — the transposed stacked
  weight matrices and the summed stacked bias that @main computed before the region. So point t writes back rows
  4096·t … 4096·t + 4095 of ONE array, the row-wise LSTM cell of the whole x, h, c; the 1024 blocks tile the 4194304 rows
  (row r lies in block r / 4096), hence each result array ends equal to that array everywhere.
-/
import proofs.«172816_j83090437308833_2_alg».proof.Proof.KernelIdealRun
import proofs.«172816_j83090437308833_2_alg».proof.Proof.BodyLstm
import proofs.«172816_j83090437308833_2_alg».proof.Proof.LstmSpec
import Idealize.ShloMosaic.Lib.Pipeline.Value
import Idealize.ShloMosaic.Lib.StableHlo.Run
import Idealize.ShloMosaic.Lib.ValueIdx

set_option maxRecDepth 16384

noncomputable section

namespace Cert.KernelIdeal.CellValue

open Cert.KernelIdeal Cert.KernelIdeal.Gen Cert.KernelIdeal.Cell
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The weights and the bias the region finds -/

/-- The four input-to-gate matrices stacked to [16,10] and transposed to [10,16]. -/
abbrev wxT (c : Dev nD) : FVec Ideal S10x16 .f32 :=
  transpose S10x16 [1, 0] (concatenate S16x10 0 [⟨S4x10, m ((c : Thread nD τ).loc main_arg3)⟩, ⟨S4x10, m ((c : Thread nD τ).loc main_arg5)⟩, ⟨S4x10, m ((c : Thread nD τ).loc main_arg7)⟩, ⟨S4x10, m ((c : Thread nD τ).loc main_arg9)⟩] concatenates_S4x10_S4x10_S4x10_S4x10_S16x10_d0) transposes_S16x10_S10x16_1_0

/-- The four hidden-to-gate matrices stacked to [16,4] and transposed to [4,16]. -/
abbrev whT (c : Dev nD) : FVec Ideal S4x16 .f32 :=
  transpose S4x16 [1, 0] (concatenate S16x4 0 [⟨S4x4, m ((c : Thread nD τ).loc main_arg11)⟩, ⟨S4x4, m ((c : Thread nD τ).loc main_arg13)⟩, ⟨S4x4, m ((c : Thread nD τ).loc main_arg15)⟩, ⟨S4x4, m ((c : Thread nD τ).loc main_arg17)⟩] concatenates_S4x4_S4x4_S4x4_S4x4_S16x4_d0) transposes_S16x4_S4x16_1_0

/-- The sum of the two stacked bias vectors, sixteen entries. -/
abbrev bsum (c : Dev nD) : FVec Ideal S16 .f32 :=
  addf (concatenate S16 0 [⟨S4, m ((c : Thread nD τ).loc main_arg4)⟩, ⟨S4, m ((c : Thread nD τ).loc main_arg6)⟩, ⟨S4, m ((c : Thread nD τ).loc main_arg8)⟩, ⟨S4, m ((c : Thread nD τ).loc main_arg10)⟩] concatenates_S4_S4_S4_S4_S16_d0)
    (concatenate S16 0 [⟨S4, m ((c : Thread nD τ).loc main_arg12)⟩, ⟨S4, m ((c : Thread nD τ).loc main_arg14)⟩, ⟨S4, m ((c : Thread nD τ).loc main_arg16)⟩, ⟨S4, m ((c : Thread nD τ).loc main_arg18)⟩] concatenates_S4_S4_S4_S4_S16_d0)

/-- The region finds the transposed stacked input weights in the buffer window 3 stages. -/
theorem entry_wx (c : Dev nD) : (atEntry m c main_v4 : S10x16.Idx → EReal) = wxT m c := by
  dsimp only [atEntry, hostOps0]
  simp only [List.flatten_cons, List.flatten_nil, List.append_nil]
  after_results_simp <;> rfl

/-- The region finds the transposed stacked hidden weights in the buffer window 4 stages. -/
theorem entry_wh (c : Dev nD) : (atEntry m c main_v5 : S4x16.Idx → EReal) = whT m c := by
  dsimp only [atEntry, hostOps0]
  simp only [List.flatten_cons, List.flatten_nil, List.append_nil]
  after_results_simp <;> rfl

/-- The region finds the summed bias, recast from [16] to [1,16], in the buffer window 5 stages. -/
theorem entry_b (c : Dev nD) : (atEntry m c main_v7 : S1x16.Idx → EReal) = fun i => shapeCast S1x16 (bsum m c) shapeCasts_S16_S1x16 i := by
  dsimp only [atEntry, hostOps0]
  simp only [List.flatten_cons, List.flatten_nil, List.append_nil]
  after_results_simp <;> rfl

/-- Entry (0, k) of the recast bias is entry k of the summed bias: a [16] vector and its [1,16] recast share the
    row-major position k. -/
theorem entry_b_apply (c : Dev nD) (k : Fin 16) : (atEntry m c main_v7 : S1x16.Idx → EReal) (ix2 0 k) = bsum m c (ix1 k) := by
  rw [entry_b]
  refine shapeCast_apply (bsum m c) shapeCasts_S16_S1x16 (ix2 0 k) (ix1 k) ?_
  rw [Shape.rowMajor_val_two, Shape.rowMajor_val_one]
  show k.val = 0 * 16 + k.val
  omega

/-! ## The two result arrays as functions of the argument arrays -/

/-- The new hidden state of all 4194304 rows: the row-wise LSTM cell of the launch contents of x, h, c and the weights
    and bias above. -/
def hidSpec (c : Dev nD) : S4194304x4.Idx → EReal :=
  Lstm.hidArr (m ((c : Thread nD τ).loc main_arg0)) (m ((c : Thread nD τ).loc main_arg1)) (m ((c : Thread nD τ).loc main_arg2)) (wxT m c) (whT m c) (fun k => bsum m c (ix1 k))

/-- The new cell state of all 4194304 rows. -/
def cellSpec (c : Dev nD) : S4194304x4.Idx → EReal :=
  Lstm.cellArr (m ((c : Thread nD τ).loc main_arg0)) (m ((c : Thread nD τ).loc main_arg1)) (m ((c : Thread nD τ).loc main_arg2)) (wxT m c) (whT m c) (fun k => bsum m c (ix1 k))

/-! ## The blocks of a point -/

theorem zero2 : (![0, 0] : Fin 2 → Nat) = fun _ => 0 := funext fun a => by fin_cases a <;> rfl

/-- The printed index maps over the grid: at point t the three batch inputs and the two results are at block (t, 0), the
    three small arrays at block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem point_lt (t : Fin cfg0.N) : t.val < 1024 := N_0 ▸ t.isLt

/-- Row `p` of window 0's block at point `t` is row `4096·t + p` of x. -/
theorem blk0_apply (c : Dev nD) (t : Fin cfg0.N) (p : Fin 4096) (d : Fin 10) (P : Fin 4194304) (hP : P.val = t.val * 4096 + p.val) :
    blockAt m c 0 t (ix2 p d) = m ((c : Thread nD τ).loc main_arg0) (ix2 P d) := by
  obtain ⟨e0, e1⟩ := (index_facts t).1
  show atEntry m c main_arg0 (((cfg0.win 0).blk t).view.emb (ix2 p d)) = _
  rw [entry_arg0]
  refine congrArg _ (funext fun a => Fin.ext ?_)
  match a with
  | ⟨0, _⟩ => show win0_0.index t (0 : Fin 2) * 4096 + 1 * p.val = P.val; rw [e0, hP]; omega
  | ⟨1, _⟩ => show win0_0.index t (1 : Fin 2) * 10 + 1 * d.val = d.val; rw [e1]; omega

/-- Row `p` of window 1's block at point `t` is row `4096·t + p` of h. -/
theorem blk1_apply (c : Dev nD) (t : Fin cfg0.N) (p : Fin 4096) (d : Fin 4) (P : Fin 4194304) (hP : P.val = t.val * 4096 + p.val) :
    blockAt m c 1 t (ix2 p d) = m ((c : Thread nD τ).loc main_arg1) (ix2 P d) := by
  obtain ⟨e0, e1⟩ := (index_facts t).2.1
  show atEntry m c main_arg1 (((cfg0.win 1).blk t).view.emb (ix2 p d)) = _
  rw [entry_arg1]
  refine congrArg _ (funext fun a => Fin.ext ?_)
  match a with
  | ⟨0, _⟩ => show win0_1.index t (0 : Fin 2) * 4096 + 1 * p.val = P.val; rw [e0, hP]; omega
  | ⟨1, _⟩ => show win0_1.index t (1 : Fin 2) * 4 + 1 * d.val = d.val; rw [e1]; omega

/-- Row `p` of window 2's block at point `t` is row `4096·t + p` of c. -/
theorem blk2_apply (c : Dev nD) (t : Fin cfg0.N) (p : Fin 4096) (d : Fin 4) (P : Fin 4194304) (hP : P.val = t.val * 4096 + p.val) :
    blockAt m c 2 t (ix2 p d) = m ((c : Thread nD τ).loc main_arg2) (ix2 P d) := by
  obtain ⟨e0, e1⟩ := (index_facts t).2.2.1
  show atEntry m c main_arg2 (((cfg0.win 2).blk t).view.emb (ix2 p d)) = _
  rw [entry_arg2]
  refine congrArg _ (funext fun a => Fin.ext ?_)
  match a with
  | ⟨0, _⟩ => show win0_2.index t (0 : Fin 2) * 4096 + 1 * p.val = P.val; rw [e0, hP]; omega
  | ⟨1, _⟩ => show win0_2.index t (1 : Fin 2) * 4 + 1 * d.val = d.val; rw [e1]; omega

/-- Window 3's block at any point is the whole transposed stacked input-weight matrix. -/
theorem blk3_apply (c : Dev nD) (t : Fin cfg0.N) (d : Fin 10) (k : Fin 16) :
    blockAt m c 3 t (ix2 d k) = wxT m c (ix2 d k) := by
  obtain ⟨e0, e1⟩ := (index_facts t).2.2.2.1
  show atEntry m c main_v4 (((cfg0.win 3).blk t).view.emb (ix2 d k)) = _
  rw [← entry_wx]
  refine congrArg _ (funext fun a => Fin.ext ?_)
  match a with
  | ⟨0, _⟩ => show win0_3.index t (0 : Fin 2) * 10 + 1 * d.val = d.val; rw [e0]; omega
  | ⟨1, _⟩ => show win0_3.index t (1 : Fin 2) * 16 + 1 * k.val = k.val; rw [e1]; omega

/-- Window 4's block at any point is the whole transposed stacked hidden-weight matrix. -/
theorem blk4_apply (c : Dev nD) (t : Fin cfg0.N) (d : Fin 4) (k : Fin 16) :
    blockAt m c 4 t (ix2 d k) = whT m c (ix2 d k) := by
  obtain ⟨e0, e1⟩ := (index_facts t).2.2.2.2.1
  show atEntry m c main_v5 (((cfg0.win 4).blk t).view.emb (ix2 d k)) = _
  rw [← entry_wh]
  refine congrArg _ (funext fun a => Fin.ext ?_)
  match a with
  | ⟨0, _⟩ => show win0_4.index t (0 : Fin 2) * 4 + 1 * d.val = d.val; rw [e0]; omega
  | ⟨1, _⟩ => show win0_4.index t (1 : Fin 2) * 16 + 1 * k.val = k.val; rw [e1]; omega

/-- Window 5's block at any point is the whole [1,16] bias: its entry (0, k) is entry k of the summed bias. -/
theorem blk5_apply (c : Dev nD) (t : Fin cfg0.N) (k : Fin 16) :
    blockAt m c 5 t (ix2 0 k) = bsum m c (ix1 k) := by
  obtain ⟨e0, e1⟩ := (index_facts t).2.2.2.2.2.1
  show atEntry m c main_v7 (((cfg0.win 5).blk t).view.emb (ix2 0 k)) = _
  rw [← entry_b_apply]
  refine congrArg _ (funext fun a => Fin.ext ?_)
  match a with
  | ⟨0, _⟩ => show win0_5.index t (0 : Fin 2) * 1 + 1 * 0 = 0; rw [e0]
  | ⟨1, _⟩ => show win0_5.index t (1 : Fin 2) * 16 + 1 * k.val = k.val; rw [e1]; omega

/-! ## What each point writes back -/

/-- What point `t` writes back to the hid array is block `t` of `hidSpec`. -/
theorem flushed_hid (c : Dev nD) (t : Fin cfg0.N) :
    (pdata m 0 c).flushed 6 t = ((cfg0.win 6).blk t).view.read (Elt Ideal) (hidSpec m c) := by
  show (cfg0.win 6).cut (grid0.coords t) ((pdata m 0 c).after 6 t) = _
  rw [pdata_after6]
  unfold hidOut
  rw [View.canon_unit_zero zero2]
  simp only [View.ld_unit_zero (S := S4096x10) zero2, View.ld_unit_zero (S := S4096x4) zero2, View.ld_unit_zero (S := S10x16) zero2,
    View.ld_unit_zero (S := S4x16) zero2, View.ld_unit_zero (S := S1x16) zero2]
  rw [BodyValue.pay_hid]
  funext j
  obtain ⟨p, q, rfl⟩ : ∃ (p : Fin 4096) (q : Fin 4), j = ix2 p q := ⟨j 0, j 1, eq_ix2 j⟩
  have ht := point_lt t
  have hp := p.isLt
  obtain ⟨e0, e1⟩ := (index_facts t).2.2.2.2.2.2.1
  have hemb : ((cfg0.win 6).blk t).view.emb (ix2 p q) = ix2 (⟨t.val * 4096 + p.val, by omega⟩ : Fin 4194304) q := by
    funext a; apply Fin.ext
    match a with
    | ⟨0, _⟩ => show win0_6.index t (0 : Fin 2) * 4096 + 1 * p.val = t.val * 4096 + p.val; rw [e0]; omega
    | ⟨1, _⟩ => show win0_6.index t (1 : Fin 2) * 4 + 1 * q.val = q.val; rw [e1]; omega
  show Lstm.hidArr (n := 4096) (blockAt m c 0 t) (blockAt m c 1 t) (blockAt m c 2 t) (blockAt m c 3 t) (blockAt m c 4 t) (fun k => blockAt m c 5 t (ix2 0 k)) (ix2 p q)
    = hidSpec m c (((cfg0.win 6).blk t).view.emb (ix2 p q))
  rw [hemb]
  unfold hidSpec
  rw [Lstm.hidArr_apply, Lstm.hidArr_apply]
  have r0 : Lstm.row (n := 4096) (c := 10) (blockAt m c 0 t) p = Lstm.row (m ((c : Thread nD τ).loc main_arg0)) (⟨t.val * 4096 + p.val, by omega⟩ : Fin 4194304) :=
    funext fun d => blk0_apply m c t p d _ rfl
  have r1 : Lstm.row (n := 4096) (c := 4) (blockAt m c 1 t) p = Lstm.row (m ((c : Thread nD τ).loc main_arg1)) (⟨t.val * 4096 + p.val, by omega⟩ : Fin 4194304) :=
    funext fun d => blk1_apply m c t p d _ rfl
  have r2 : Lstm.row (n := 4096) (c := 4) (blockAt m c 2 t) p = Lstm.row (m ((c : Thread nD τ).loc main_arg2)) (⟨t.val * 4096 + p.val, by omega⟩ : Fin 4194304) :=
    funext fun d => blk2_apply m c t p d _ rfl
  have r3 : Lstm.mat (n := 10) (c := 16) (blockAt m c 3 t) = Lstm.mat (wxT m c) :=
    funext fun d => funext fun k => blk3_apply m c t d k
  have r4 : Lstm.mat (n := 4) (c := 16) (blockAt m c 4 t) = Lstm.mat (whT m c) :=
    funext fun d => funext fun k => blk4_apply m c t d k
  have r5 : (fun k : Fin 16 => blockAt m c 5 t (ix2 0 k)) = fun k => bsum m c (ix1 k) :=
    funext fun k => blk5_apply m c t k
  rw [r0, r1, r2, r3, r4, r5]

/-- What point `t` writes back to the cell array is block `t` of `cellSpec`. -/
theorem flushed_cell (c : Dev nD) (t : Fin cfg0.N) :
    (pdata m 0 c).flushed 7 t = ((cfg0.win 7).blk t).view.read (Elt Ideal) (cellSpec m c) := by
  show (cfg0.win 7).cut (grid0.coords t) ((pdata m 0 c).after 7 t) = _
  rw [pdata_after7]
  unfold cellOut
  rw [View.canon_unit_zero zero2]
  simp only [View.ld_unit_zero (S := S4096x10) zero2, View.ld_unit_zero (S := S4096x4) zero2, View.ld_unit_zero (S := S10x16) zero2,
    View.ld_unit_zero (S := S4x16) zero2, View.ld_unit_zero (S := S1x16) zero2]
  rw [BodyValue.pay_cell]
  funext j
  obtain ⟨p, q, rfl⟩ : ∃ (p : Fin 4096) (q : Fin 4), j = ix2 p q := ⟨j 0, j 1, eq_ix2 j⟩
  have ht := point_lt t
  have hp := p.isLt
  obtain ⟨e0, e1⟩ := (index_facts t).2.2.2.2.2.2.2
  have hemb : ((cfg0.win 7).blk t).view.emb (ix2 p q) = ix2 (⟨t.val * 4096 + p.val, by omega⟩ : Fin 4194304) q := by
    funext a; apply Fin.ext
    match a with
    | ⟨0, _⟩ => show win0_7.index t (0 : Fin 2) * 4096 + 1 * p.val = t.val * 4096 + p.val; rw [e0]; omega
    | ⟨1, _⟩ => show win0_7.index t (1 : Fin 2) * 4 + 1 * q.val = q.val; rw [e1]; omega
  show Lstm.cellArr (n := 4096) (blockAt m c 0 t) (blockAt m c 1 t) (blockAt m c 2 t) (blockAt m c 3 t) (blockAt m c 4 t) (fun k => blockAt m c 5 t (ix2 0 k)) (ix2 p q)
    = cellSpec m c (((cfg0.win 7).blk t).view.emb (ix2 p q))
  rw [hemb]
  unfold cellSpec
  rw [Lstm.cellArr_apply, Lstm.cellArr_apply]
  have r0 : Lstm.row (n := 4096) (c := 10) (blockAt m c 0 t) p = Lstm.row (m ((c : Thread nD τ).loc main_arg0)) (⟨t.val * 4096 + p.val, by omega⟩ : Fin 4194304) :=
    funext fun d => blk0_apply m c t p d _ rfl
  have r1 : Lstm.row (n := 4096) (c := 4) (blockAt m c 1 t) p = Lstm.row (m ((c : Thread nD τ).loc main_arg1)) (⟨t.val * 4096 + p.val, by omega⟩ : Fin 4194304) :=
    funext fun d => blk1_apply m c t p d _ rfl
  have r2 : Lstm.row (n := 4096) (c := 4) (blockAt m c 2 t) p = Lstm.row (m ((c : Thread nD τ).loc main_arg2)) (⟨t.val * 4096 + p.val, by omega⟩ : Fin 4194304) :=
    funext fun d => blk2_apply m c t p d _ rfl
  have r3 : Lstm.mat (n := 10) (c := 16) (blockAt m c 3 t) = Lstm.mat (wxT m c) :=
    funext fun d => funext fun k => blk3_apply m c t d k
  have r4 : Lstm.mat (n := 4) (c := 16) (blockAt m c 4 t) = Lstm.mat (whT m c) :=
    funext fun d => funext fun k => blk4_apply m c t d k
  have r5 : (fun k : Fin 16 => blockAt m c 5 t (ix2 0 k)) = fun k => bsum m c (ix1 k) :=
    funext fun k => blk5_apply m c t k
  rw [r0, r1, r2, r3, r4, r5]

/-! ## The blocks tile the arrays -/

/-- An index of the array lies in point `t`'s block of window 6 iff each coordinate lies in the block's range. -/
theorem mem_blk6 (t : Fin cfg0.N) (i : S4194304x4.Idx) :
    i ∈ ((cfg0.win 6).blk t).view.set ↔ ∀ a : Fin 2, win0_6.index t a * S4096x4.size a ≤ (i a).val ∧ (i a).val < win0_6.index t a * S4096x4.size a + S4096x4.size a := by
  show i ∈ ((View.whole main_v8_0).slice (win0_6.rect t)).set ↔ _
  rw [View.set_slice_whole, Rect.mem_set_unit]
  exact Iff.rfl

/-- Every index of the array lies in the block of the point its row belongs to: row r in block r / 4096. -/
theorem covered6 (i : S4194304x4.Idx) : ∃ t : Fin cfg0.N, (cfg0.win 6).flush t = true ∧ i ∈ ((cfg0.win 6).blk t).view.set := by
  have hi0 : (i 0).val < 4194304 := (i 0).isLt
  have hi1 : (i 1).val < 4 := (i 1).isLt
  have hN : (i 0).val / 4096 < cfg0.N := by rw [show cfg0.N = 1024 from N_0]; omega
  refine ⟨⟨(i 0).val / 4096, hN⟩, flush0_6 _, ?_⟩
  rw [mem_blk6]
  obtain ⟨e0, e1⟩ := (index_facts ⟨(i 0).val / 4096, hN⟩).2.2.2.2.2.2.1
  intro a
  match a with
  | ⟨0, _⟩ =>
    show win0_6.index ⟨(i 0).val / 4096, hN⟩ (0 : Fin 2) * 4096 ≤ (i 0).val ∧ (i 0).val < win0_6.index ⟨(i 0).val / 4096, hN⟩ (0 : Fin 2) * 4096 + 4096
    rw [e0]; show (i 0).val / 4096 * 4096 ≤ (i 0).val ∧ (i 0).val < (i 0).val / 4096 * 4096 + 4096; omega
  | ⟨1, _⟩ =>
    show win0_6.index ⟨(i 0).val / 4096, hN⟩ (1 : Fin 2) * 4 ≤ (i 1).val ∧ (i 1).val < win0_6.index ⟨(i 0).val / 4096, hN⟩ (1 : Fin 2) * 4 + 4
    rw [e1]; omega

/-- An index of the array lies in point `t`'s block of window 7 iff each coordinate lies in the block's range. -/
theorem mem_blk7 (t : Fin cfg0.N) (i : S4194304x4.Idx) :
    i ∈ ((cfg0.win 7).blk t).view.set ↔ ∀ a : Fin 2, win0_7.index t a * S4096x4.size a ≤ (i a).val ∧ (i a).val < win0_7.index t a * S4096x4.size a + S4096x4.size a := by
  show i ∈ ((View.whole main_v8_1).slice (win0_7.rect t)).set ↔ _
  rw [View.set_slice_whole, Rect.mem_set_unit]
  exact Iff.rfl

/-- Every index of the array lies in the block of the point its row belongs to: row r in block r / 4096. -/
theorem covered7 (i : S4194304x4.Idx) : ∃ t : Fin cfg0.N, (cfg0.win 7).flush t = true ∧ i ∈ ((cfg0.win 7).blk t).view.set := by
  have hi0 : (i 0).val < 4194304 := (i 0).isLt
  have hi1 : (i 1).val < 4 := (i 1).isLt
  have hN : (i 0).val / 4096 < cfg0.N := by rw [show cfg0.N = 1024 from N_0]; omega
  refine ⟨⟨(i 0).val / 4096, hN⟩, flush0_7 _, ?_⟩
  rw [mem_blk7]
  obtain ⟨e0, e1⟩ := (index_facts ⟨(i 0).val / 4096, hN⟩).2.2.2.2.2.2.2
  intro a
  match a with
  | ⟨0, _⟩ =>
    show win0_7.index ⟨(i 0).val / 4096, hN⟩ (0 : Fin 2) * 4096 ≤ (i 0).val ∧ (i 0).val < win0_7.index ⟨(i 0).val / 4096, hN⟩ (0 : Fin 2) * 4096 + 4096
    rw [e0]; show (i 0).val / 4096 * 4096 ≤ (i 0).val ∧ (i 0).val < (i 0).val / 4096 * 4096 + 4096; omega
  | ⟨1, _⟩ =>
    show win0_7.index ⟨(i 0).val / 4096, hN⟩ (1 : Fin 2) * 4 ≤ (i 1).val ∧ (i 1).val < win0_7.index ⟨(i 0).val / 4096, hN⟩ (1 : Fin 2) * 4 + 4
    rw [e1]; omega

/-! ## The arrays after the run -/

/-- The hidden-state array ends at `hidSpec`: every point writes back its block of it, and the blocks cover the array. -/
theorem final_hid (c : Dev nD) : (pdata m 0 c).arrAt 6 cfg0.N = hidSpec m c :=
  (pdata m 0 c).arrAt_eq_of_cover 6 (hidSpec m c) (fun t _ => flushed_hid m c t) covered6

/-- The cell-state array ends at `cellSpec`. -/
theorem final_cell (c : Dev nD) : (pdata m 0 c).arrAt 7 cfg0.N = cellSpec m c :=
  (pdata m 0 c).arrAt_eq_of_cover 7 (cellSpec m c) (fun t _ => flushed_cell m c t) covered7

/-- The run of @main at the ideal instance: it terminates without a fault with the two result arrays at the row-wise
    LSTM cell of the launch contents of the arguments, and the nineteen argument arrays unchanged. -/
theorem run_value : θ_run defs (onTc (τ := τ) (main (F := Ideal))) ⟨m, fun _ => 0, ρ⟩ fun r => ∀ c : Dev nD,
      r.2.mem ((c.tc : Thread nD τ).loc main_v8_0) = hidSpec m c
      ∧ r.2.mem ((c.tc : Thread nD τ).loc main_v8_1) = cellSpec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (final_hid m c), ((h c).1 7).trans (final_cell m c),
      ((h c).1 0).trans (((pdata m 0 c).arrAt_in 0 rfl _).trans ((pdata_arr m c 0).trans (entry_arg0 m c))),
      ((h c).1 1).trans (((pdata m 0 c).arrAt_in 1 rfl _).trans ((pdata_arr m c 1).trans (entry_arg1 m c))),
      ((h c).1 2).trans (((pdata m 0 c).arrAt_in 2 rfl _).trans ((pdata_arr m c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c),
      ((h c).2 main_arg18 (Pipeline.mem_restRefs_of main_arg18 (by decide) (by decide))).trans (entry_arg18 m c)⟩)
    (run_to_post m ρ)

end Cert.KernelIdeal.CellValue

end
-- ==== Proof.RefLstm.lean ====
/-
  The reference program computes the LSTM cell of the specification.

  Its sixteen pre-activations of a batch row are the row of x against a column of the stacked, transposed
  input weights, plus the row of h against a column of the stacked, transposed hidden weights, plus the sum of the
  two stacked bias vectors: the specification's gate. The four column groups 0-3, 4-7, 8-11, 12-15 are cut out by
  slices; the logistic function is spelt 1 / (1 + exp (-z)), with the literal one; the new cell state is
  forget * c + input * tanh(candidate) and the new hidden state output * tanh(new cell state).
  The three weight terms are kept whole: they are parameters of the specification, never read at an index here.
-/
import proofs.«172816_j83090437308833_2_alg».proof.Proof.Gen.ReferenceIdeal.Read
import proofs.«172816_j83090437308833_2_alg».proof.Proof.LstmSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The stacked input-to-gate weights, transposed: column k is row k of the four 4 x 10 matrices laid one under another. -/
abbrev WxT (a3 a5 a7 a9 : (⟨S4x10, .f32⟩ : BufTy).Contents (Elt Ideal)) : FVec Ideal S10x16 .f32 :=
  transpose S10x16 [1, 0] (concatenate S16x10 0 [⟨S4x10, a3⟩, ⟨S4x10, a5⟩, ⟨S4x10, a7⟩, ⟨S4x10, a9⟩] concatenates_S4x10_S4x10_S4x10_S4x10_S16x10_d0) transposes_S16x10_S10x16_1_0

/-- The stacked hidden-to-gate weights, transposed. -/
abbrev WhT (a11 a13 a15 a17 : (⟨S4x4, .f32⟩ : BufTy).Contents (Elt Ideal)) : FVec Ideal S4x16 .f32 :=
  transpose S4x16 [1, 0] (concatenate S16x4 0 [⟨S4x4, a11⟩, ⟨S4x4, a13⟩, ⟨S4x4, a15⟩, ⟨S4x4, a17⟩] concatenates_S4x4_S4x4_S4x4_S4x4_S16x4_d0) transposes_S16x4_S4x16_1_0

/-- The sum of the two stacked bias vectors. -/
abbrev bsum (a4 a6 a8 a10 a12 a14 a16 a18 : (⟨S4, .f32⟩ : BufTy).Contents (Elt Ideal)) : FVec Ideal S16 .f32 :=
  addf (concatenate S16 0 [⟨S4, a4⟩, ⟨S4, a6⟩, ⟨S4, a8⟩, ⟨S4, a10⟩] concatenates_S4_S4_S4_S4_S16_d0)
    (concatenate S16 0 [⟨S4, a12⟩, ⟨S4, a14⟩, ⟨S4, a16⟩, ⟨S4, a18⟩] concatenates_S4_S4_S4_S4_S16_d0)

variable (x0 : (⟨S4194304x10, .f32⟩ : BufTy).Contents (Elt Ideal)) (x1 x2 : (⟨S4194304x4, .f32⟩ : BufTy).Contents (Elt Ideal))
  (x3 : (⟨S4x10, .f32⟩ : BufTy).Contents (Elt Ideal)) (x4 : (⟨S4, .f32⟩ : BufTy).Contents (Elt Ideal))
  (x5 : (⟨S4x10, .f32⟩ : BufTy).Contents (Elt Ideal)) (x6 : (⟨S4, .f32⟩ : BufTy).Contents (Elt Ideal))
  (x7 : (⟨S4x10, .f32⟩ : BufTy).Contents (Elt Ideal)) (x8 : (⟨S4, .f32⟩ : BufTy).Contents (Elt Ideal))
  (x9 : (⟨S4x10, .f32⟩ : BufTy).Contents (Elt Ideal)) (x10 : (⟨S4, .f32⟩ : BufTy).Contents (Elt Ideal))
  (x11 : (⟨S4x4, .f32⟩ : BufTy).Contents (Elt Ideal)) (x12 : (⟨S4, .f32⟩ : BufTy).Contents (Elt Ideal))
  (x13 : (⟨S4x4, .f32⟩ : BufTy).Contents (Elt Ideal)) (x14 : (⟨S4, .f32⟩ : BufTy).Contents (Elt Ideal))
  (x15 : (⟨S4x4, .f32⟩ : BufTy).Contents (Elt Ideal)) (x16 : (⟨S4, .f32⟩ : BufTy).Contents (Elt Ideal))
  (x17 : (⟨S4x4, .f32⟩ : BufTy).Contents (Elt Ideal)) (x18 : (⟨S4, .f32⟩ : BufTy).Contents (Elt Ideal))

/-- The pre-activation k of batch row p, in the specification's words. -/
abbrev z (p : Fin 4194304) (k : Fin 16) : EReal :=
  Lstm.gate (Lstm.row x0 p) (Lstm.row x1 p) (Lstm.mat (WxT x3 x5 x7 x9)) (Lstm.mat (WhT x11 x13 x15 x17))
    (fun k => bsum x4 x6 x8 x10 x12 x14 x16 x18 (ix1 k)) k

/-- The reference's sixteen pre-activations of row p are the specification's: two contractions and the broadcast bias. -/
theorem preact_apply (p : Fin 4194304) (k : Fin 16) :
    val_main_v12 (F := Ideal) x0 x1 x3 x4 x5 x6 x7 x8 x9 x10 x11 x12 x13 x14 x15 x16 x17 x18 (ix2 p k)
      = z x0 x1 x3 x4 x5 x6 x7 x8 x9 x10 x11 x12 x13 x14 x15 x16 x17 x18 p k := by
  have el5 : ∀ d : Fin 10, lidx_main_v5 (ix2 p k) d = ix2 p d := fun d =>
    funext fun a => Fin.ext (by match a with | ⟨0, _⟩ => rfl | ⟨1, _⟩ => rfl)
  have er5 : ∀ d : Fin 10, ridx_main_v5 (ix2 p k) d = ix2 d k := fun d =>
    funext fun a => Fin.ext (by match a with | ⟨0, _⟩ => rfl | ⟨1, _⟩ => rfl)
  have el7 : ∀ d : Fin 4, lidx_main_v7 (ix2 p k) d = ix2 p d := fun d =>
    funext fun a => Fin.ext (by match a with | ⟨0, _⟩ => rfl | ⟨1, _⟩ => rfl)
  have er7 : ∀ d : Fin 4, ridx_main_v7 (ix2 p k) d = ix2 d k := fun d =>
    funext fun a => Fin.ext (by match a with | ⟨0, _⟩ => rfl | ⟨1, _⟩ => rfl)
  have eb : idx_main_v10 (idx_main_v11 (ix2 p k)) = ix1 k :=
    funext fun a => Fin.ext (by match a with | ⟨0, _⟩ => rfl)
  rw [val_main_v12_apply, val_main_v8_apply, val_main_v5_apply, val_main_v7_apply, val_main_v11_apply, val_main_v10_apply]
  simp only [el5, er5, el7, er7, eb]
  rfl

/-- The literal in the logistic function's numerator and denominator is one. -/
theorem one_bits : Ideal.ofBits .f32 0x3F800000#32 = (1 : EReal) := by
  simp [Ideal.ofBits, Ideal.ieee, -EReal.coe_mul]; norm_num

/-- One over one plus the exponential of the negation, in the host's operations, is the logistic function. -/
theorem sigmoid_eq (t : EReal) :
    FloatOps.hostDivf (F := Ideal) (φ := .f32) (FloatOps.ofBits .f32 0x3F800000#32)
      (FloatOps.addf (FloatOps.ofBits .f32 0x3F800000#32) (FloatOps.hostUnary .exp (FloatOps.hostNegf t))) = Ideal.logistic t := by
  show Ideal.div (Ideal.ofBits .f32 0x3F800000#32) (Ideal.ofBits .f32 0x3F800000#32 + Ideal.exp (-t)) = Ideal.logistic t
  rw [one_bits]; rfl

/-- The input gate: the logistic function of columns 0 to 3. -/
theorem gate_in (p : Fin 4194304) (j : Fin 4) :
    val_main_v22 (F := Ideal) x0 x1 x3 x4 x5 x6 x7 x8 x9 x10 x11 x12 x13 x14 x15 x16 x17 x18 (ix2 p j)
      = Ideal.logistic (z x0 x1 x3 x4 x5 x6 x7 x8 x9 x10 x11 x12 x13 x14 x15 x16 x17 x18 p (Lstm.col 0 (by norm_num) j)) := by
  have e : idx_main_v13 (ix2 p j) = ix2 p (Lstm.col 0 (by norm_num) j) :=
    funext fun a => Fin.ext (by match a with | ⟨0, _⟩ => rfl | ⟨1, _⟩ => exact (Nat.zero_add _).symm)
  rw [val_main_v22_apply, val_main_v21_apply, val_main_cst_0_apply, val_main_v20_apply, val_main_v19_apply, val_main_cst_apply,
    val_main_v18_apply, val_main_v17_apply, val_main_v13_apply, e, preact_apply]
  exact sigmoid_eq _

/-- The forget gate: the logistic function of columns 4 to 7. -/
theorem gate_forget (p : Fin 4194304) (j : Fin 4) :
    val_main_v28 (F := Ideal) x0 x1 x3 x4 x5 x6 x7 x8 x9 x10 x11 x12 x13 x14 x15 x16 x17 x18 (ix2 p j)
      = Ideal.logistic (z x0 x1 x3 x4 x5 x6 x7 x8 x9 x10 x11 x12 x13 x14 x15 x16 x17 x18 p (Lstm.col 4 (by norm_num) j)) := by
  have e : idx_main_v14 (ix2 p j) = ix2 p (Lstm.col 4 (by norm_num) j) :=
    funext fun a => Fin.ext (by match a with | ⟨0, _⟩ => rfl | ⟨1, _⟩ => rfl)
  rw [val_main_v28_apply, val_main_v27_apply, val_main_cst_2_apply, val_main_v26_apply, val_main_v25_apply, val_main_cst_1_apply,
    val_main_v24_apply, val_main_v23_apply, val_main_v14_apply, e, preact_apply]
  exact sigmoid_eq _

/-- The candidate: the hyperbolic tangent of columns 8 to 11. -/
theorem candidate (p : Fin 4194304) (j : Fin 4) :
    val_main_v29 (F := Ideal) x0 x1 x3 x4 x5 x6 x7 x8 x9 x10 x11 x12 x13 x14 x15 x16 x17 x18 (ix2 p j)
      = Ideal.tanh (z x0 x1 x3 x4 x5 x6 x7 x8 x9 x10 x11 x12 x13 x14 x15 x16 x17 x18 p (Lstm.col 8 (by norm_num) j)) := by
  have e : idx_main_v15 (ix2 p j) = ix2 p (Lstm.col 8 (by norm_num) j) :=
    funext fun a => Fin.ext (by match a with | ⟨0, _⟩ => rfl | ⟨1, _⟩ => rfl)
  rw [val_main_v29_apply, val_main_v15_apply, e, preact_apply]
  rfl

/-- The output gate: the logistic function of columns 12 to 15. -/
theorem gate_out (p : Fin 4194304) (j : Fin 4) :
    val_main_v35 (F := Ideal) x0 x1 x3 x4 x5 x6 x7 x8 x9 x10 x11 x12 x13 x14 x15 x16 x17 x18 (ix2 p j)
      = Ideal.logistic (z x0 x1 x3 x4 x5 x6 x7 x8 x9 x10 x11 x12 x13 x14 x15 x16 x17 x18 p (Lstm.col 12 (by norm_num) j)) := by
  have e : idx_main_v16 (ix2 p j) = ix2 p (Lstm.col 12 (by norm_num) j) :=
    funext fun a => Fin.ext (by match a with | ⟨0, _⟩ => rfl | ⟨1, _⟩ => rfl)
  rw [val_main_v35_apply, val_main_v34_apply, val_main_cst_4_apply, val_main_v33_apply, val_main_v32_apply, val_main_cst_3_apply,
    val_main_v31_apply, val_main_v30_apply, val_main_v16_apply, e, preact_apply]
  exact sigmoid_eq _

/-- The reference's new cell state at (p, j) is the specification's. -/
theorem cell_apply (p : Fin 4194304) (j : Fin 4) :
    val_main_v38 (F := Ideal) x0 x1 x2 x3 x4 x5 x6 x7 x8 x9 x10 x11 x12 x13 x14 x15 x16 x17 x18 (ix2 p j)
      = Lstm.cell (Lstm.row x0 p) (Lstm.row x1 p) (Lstm.row x2 p) (Lstm.mat (WxT x3 x5 x7 x9)) (Lstm.mat (WhT x11 x13 x15 x17))
          (fun k => bsum x4 x6 x8 x10 x12 x14 x16 x18 (ix1 k)) j := by
  rw [val_main_v38_apply, val_main_v36_apply, val_main_v37_apply, gate_forget, gate_in, candidate]
  rfl

/-- The reference's new cell state is the specification's, as one array. -/
theorem ref_cell :
    val_main_v38 (F := Ideal) x0 x1 x2 x3 x4 x5 x6 x7 x8 x9 x10 x11 x12 x13 x14 x15 x16 x17 x18
      = Lstm.cellArr x0 x1 x2 (WxT x3 x5 x7 x9) (WhT x11 x13 x15 x17) (fun k => bsum x4 x6 x8 x10 x12 x14 x16 x18 (ix1 k)) := by
  funext i
  obtain ⟨p, j, rfl⟩ : ∃ (p : Fin 4194304) (j : Fin 4), i = ix2 p j := ⟨i 0, i 1, eq_ix2 i⟩
  rw [cell_apply, Lstm.cellArr_apply]

/-- The reference's new hidden state is the specification's, as one array. -/
theorem ref_hid :
    val_main_v40 (F := Ideal) x0 x1 x2 x3 x4 x5 x6 x7 x8 x9 x10 x11 x12 x13 x14 x15 x16 x17 x18
      = Lstm.hidArr x0 x1 x2 (WxT x3 x5 x7 x9) (WhT x11 x13 x15 x17) (fun k => bsum x4 x6 x8 x10 x12 x14 x16 x18 (ix1 k)) := by
  funext i
  obtain ⟨p, j, rfl⟩ : ∃ (p : Fin 4194304) (j : Fin 4), i = ix2 p j := ⟨i 0, i 1, eq_ix2 i⟩
  rw [val_main_v40_apply, val_main_v39_apply, cell_apply, gate_out, Lstm.hidArr_apply]
  rfl

/-- The run's term for the new cell state, over the launch memory, is the specification's array. -/
theorem res_cell (m : (ℓ : Loc nD τ sig) → Buf (Elt Ideal) ℓ) (c : Dev nD) :
    Cert.ReferenceIdeal.Value.res_main_v38 (F := Ideal) m c
      = Lstm.cellArr (m ((c.tc : Thread nD τ).loc main_arg0)) (m ((c.tc : Thread nD τ).loc main_arg1)) (m ((c.tc : Thread nD τ).loc main_arg2))
        (WxT (m ((c.tc : Thread nD τ).loc main_arg3)) (m ((c.tc : Thread nD τ).loc main_arg5)) (m ((c.tc : Thread nD τ).loc main_arg7)) (m ((c.tc : Thread nD τ).loc main_arg9)))
        (WhT (m ((c.tc : Thread nD τ).loc main_arg11)) (m ((c.tc : Thread nD τ).loc main_arg13)) (m ((c.tc : Thread nD τ).loc main_arg15)) (m ((c.tc : Thread nD τ).loc main_arg17)))
        (fun k => bsum (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18)) (ix1 k)) :=
  (val_main_v38_eq m c).trans (ref_cell ..)

/-- The run's term for the new hidden state, over the launch memory, is the specification's array. -/
theorem res_hid (m : (ℓ : Loc nD τ sig) → Buf (Elt Ideal) ℓ) (c : Dev nD) :
    Cert.ReferenceIdeal.Value.res_main_v40 (F := Ideal) m c
      = Lstm.hidArr (m ((c.tc : Thread nD τ).loc main_arg0)) (m ((c.tc : Thread nD τ).loc main_arg1)) (m ((c.tc : Thread nD τ).loc main_arg2))
        (WxT (m ((c.tc : Thread nD τ).loc main_arg3)) (m ((c.tc : Thread nD τ).loc main_arg5)) (m ((c.tc : Thread nD τ).loc main_arg7)) (m ((c.tc : Thread nD τ).loc main_arg9)))
        (WhT (m ((c.tc : Thread nD τ).loc main_arg11)) (m ((c.tc : Thread nD τ).loc main_arg13)) (m ((c.tc : Thread nD τ).loc main_arg15)) (m ((c.tc : Thread nD τ).loc main_arg17)))
        (fun k => bsum (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18)) (ix1 k)) :=
  (val_main_v40_eq m c).trans (ref_hid ..)

end Cert.ReferenceIdeal.RefValue

end
-- ==== Proof.lean ====
/-
  An LSTM cell on 4194304 batch rows, as a pipelined kernel over blocks of 4096 rows, against its reference.

  Both programs first stack the four input-to-gate weight matrices and the four hidden-to-gate ones, transpose the
  stacks, and add the two stacked biases. Then, for every batch row, with z the sixteen pre-activations
      z = x · WxT + h · WhT + b,
  cut into input gate, forget gate, candidate and output gate (four entries each),
      c' = σ(z_f) · c + σ(z_i) · tanh(z_g),        h' = σ(z_o) · tanh(c'),
  σ the logistic function. The kernel computes this block by block — point t of a grid of 1024 on rows
  4096·t … 4096·t + 4095, a matrix product into a zero accumulator for each of the two products, the logistic function as
  one operation —, the reference on the whole arrays, the logistic function spelt 1 / (1 + e^(-z)).

  On the extended reals these are one function of the arguments: a matrix product into zero is the plain sum of products,
  the two spellings of the logistic function are the same expression, and a row of a block is a row of the array. So
  both programs end with the two result arrays at the row-wise cell `Lstm.hidArr` / `Lstm.cellArr` of the arguments,
  the weights and bias being the very same terms on both sides. No law that needs finite entries is used: nothing is
  re-associated or distributed, so the precondition is never opened.

  The three frames: the kernel's two readings (word-level and ideal) run through the pipeline library's launch theorem
  with the body's triple at a generic grid point (`Cell.args_kept`); the reference is a straight line of host
  operations, and its frame is its run with the results dropped. Nothing was rewritten in idealizing the kernel, so
  there is nothing to preserve.
-/
import proofs.«172816_j83090437308833_2_alg».proof.Defs
import proofs.«172816_j83090437308833_2_alg».proof.Proof.Gen.Kernel
import proofs.«172816_j83090437308833_2_alg».proof.Proof.Gen.KernelIdeal
import proofs.«172816_j83090437308833_2_alg».proof.Proof.Gen.ReferenceIdeal
import proofs.«172816_j83090437308833_2_alg».proof.Proof.Gen.Pre_finite_inputs
import proofs.«172816_j83090437308833_2_alg».proof.Proof.Gen.ReferenceIdeal.Run
import proofs.«172816_j83090437308833_2_alg».proof.Proof.Gen.ReferenceIdeal.Read
import proofs.«172816_j83090437308833_2_alg».proof.Proof.KernelRun
import proofs.«172816_j83090437308833_2_alg».proof.Proof.KernelIdealRun
import proofs.«172816_j83090437308833_2_alg».proof.Proof.KernelIdealValue
import proofs.«172816_j83090437308833_2_alg».proof.Proof.RefLstm
import Idealize.ShloMosaic.Adequacy
import Idealize.ShloMosaic.Init

set_option maxRecDepth 16384

noncomputable section

namespace Cert.Proof

open Idealize.ShloMosaic Idealize.SL.Sem

/-- The word-level kernel runs to the end and leaves its arguments unchanged. -/
theorem frame_kernel : Cert.frame_Kernel := fun m ρ _ => Cert.Kernel.Cell.args_kept m ρ

/-- So does the kernel read on the extended reals. -/
theorem frame_kernel_ideal : Cert.frame_KernelIdeal := fun m ρ _ => Cert.KernelIdeal.Cell.args_kept m ρ

/-- The reference's frame is its run, the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- Idealizing the kernel rewrote no operation. -/
theorem preserves : Cert.preserves_Kernel_KernelIdeal := trivial

/-- On the extended reals, from memories that agree on the nineteen arguments, the kernel and the reference both run
    to the end with the new hidden state and the new cell state at the same arrays: the row-wise LSTM cell of the
    arguments. -/
theorem algebraic : Cert.algebraic_KernelIdeal_ReferenceIdeal := by
  intro m ρ m' ρ' _ hagree
  refine ⟨fun c => Cert.KernelIdeal.CellValue.hidSpec m c, fun c => Cert.KernelIdeal.CellValue.cellSpec m c,
    Cert.KernelIdeal.CellValue.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.RefValue.res_hid]
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]
    rfl
  · rw [Cert.ReferenceIdeal.RefValue.res_cell]
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
